-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048 : Shape := ⟨1, ![2048]⟩
abbrev S64x512 : Shape := ⟨2, ![64, 512]⟩
abbrev S100x256 : Shape := ⟨2, ![100, 256]⟩
abbrev S20x64 : Shape := ⟨2, ![20, 64]⟩
abbrev S1472x2944 : Shape := ⟨2, ![1472, 2944]⟩
abbrev S2944 : Shape := ⟨1, ![2944]⟩
abbrev S2944x1472 : Shape := ⟨2, ![2944, 1472]⟩
abbrev S1472 : Shape := ⟨1, ![1472]⟩
abbrev S1472x11 : Shape := ⟨2, ![1472, 11]⟩
abbrev S11 : Shape := ⟨1, ![11]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S100x256 : S_.BroadcastsInDim S100x256 (![] : Fin 0 → Fin S100x256.rank)
  reducesTo_S100x256_S_d0_1 : S100x256.ReducesTo [0, 1] S_
  bcast_S_S20x64 : S_.BroadcastsInDim S20x64 (![] : Fin 0 → Fin S20x64.rank)
  reducesTo_S20x64_S_d0_1 : S20x64.ReducesTo [0, 1] S_
  bcast_S_S1472x2944 : S_.BroadcastsInDim S1472x2944 (![] : Fin 0 → Fin S1472x2944.rank)
  reducesTo_S1472x2944_S_d0_1 : S1472x2944.ReducesTo [0, 1] S_
  bcast_S_S2944 : S_.BroadcastsInDim S2944 (![] : Fin 0 → Fin S2944.rank)
  reducesTo_S2944_S_d0 : S2944.ReducesTo [0] S_
  bcast_S_S2944x1472 : S_.BroadcastsInDim S2944x1472 (![] : Fin 0 → Fin S2944x1472.rank)
  reducesTo_S2944x1472_S_d0_1 : S2944x1472.ReducesTo [0, 1] S_
  bcast_S_S1472 : S_.BroadcastsInDim S1472 (![] : Fin 0 → Fin S1472.rank)
  reducesTo_S1472_S_d0 : S1472.ReducesTo [0] S_
  bcast_S_S1472x11 : S_.BroadcastsInDim S1472x11 (![] : Fin 0 → Fin S1472x11.rank)
  reducesTo_S1472x11_S_d0_1 : S1472x11.ReducesTo [0, 1] S_
  bcast_S_S11 : S_.BroadcastsInDim S11 (![] : Fin 0 → Fin S11.rank)
  reducesTo_S11_S_d0 : S11.ReducesTo [0] S_

variable [Facts]

def fn_part2 {F : FTy → Type} [FloatOps F] (main_arg9 : FVec F S1472x11 .f32) (main_arg10 : FVec F S11 .f32) (main_v33 : IVec S_ 1) : IVec S_ 1 :=
  let main_v34 : FVec F S1472x11 .f32 := Host.absf main_arg9
  let main_cst_12 : FVec F S_ .f32 := constant S_ .f32 0x7F800000#32
  let main_v35 : FVec F S1472x11 .f32 := broadcastInDim S1472x11 ![] bcast_S_S1472x11 main_cst_12
  let main_v36 : IVec S1472x11 1 := cmpf .olt main_v34 main_v35
  let main_c_13 : IVec S_ 1 := constantI S_ 1 1#1
  let main_v37 : IVec S_ 1 := (fun x v => Host.reduce IntOp.andi x v reducesTo_S1472x11_S_d0_1 h_S_) main_v36 main_c_13
  let main_v38 : IVec S_ 1 := andi main_v33 main_v37
  let main_v39 : FVec F S11 .f32 := Host.absf main_arg10
  let main_cst_14 : FVec F S_ .f32 := constant S_ .f32 0x7F800000#32
  let main_v40 : FVec F S11 .f32 := broadcastInDim S11 ![] bcast_S_S11 main_cst_14
  let main_v41 : IVec S11 1 := cmpf .olt main_v39 main_v40
  let main_c_15 : IVec S_ 1 := constantI S_ 1 1#1
  let main_v42 : IVec S_ 1 := (fun x v => Host.reduce IntOp.andi x v reducesTo_S11_S_d0 h_S_) main_v41 main_c_15
  let main_v43 : IVec S_ 1 := andi main_v38 main_v42
  main_v43

def fn_part1 {F : FTy → Type} [FloatOps F] (main_arg6 : FVec F S2944 .f32) (main_arg7 : FVec F S2944x1472 .f32) (main_arg8 : FVec F S1472 .f32) (main_arg9 : FVec F S1472x11 .f32) (main_arg10 : FVec F S11 .f32) (main_v13 : IVec S_ 1) (main_v16 : IVec S1472x2944 1) : IVec S_ 1 :=
  let main_c_5 : IVec S_ 1 := constantI S_ 1 1#1
  let main_v17 : IVec S_ 1 := (fun x v => Host.reduce IntOp.andi x v reducesTo_S1472x2944_S_d0_1 h_S_) main_v16 main_c_5
  let main_v18 : IVec S_ 1 := andi main_v13 main_v17
  let main_v19 : FVec F S2944 .f32 := Host.absf main_arg6
  let main_cst_6 : FVec F S_ .f32 := constant S_ .f32 0x7F800000#32
  let main_v20 : FVec F S2944 .f32 := broadcastInDim S2944 ![] bcast_S_S2944 main_cst_6
  let main_v21 : IVec S2944 1 := cmpf .olt main_v19 main_v20
  let main_c_7 : IVec S_ 1 := constantI S_ 1 1#1
  let main_v22 : IVec S_ 1 := (fun x v => Host.reduce IntOp.andi x v reducesTo_S2944_S_d0 h_S_) main_v21 main_c_7
  let main_v23 : IVec S_ 1 := andi main_v18 main_v22
  let main_v24 : FVec F S2944x1472 .f32 := Host.absf main_arg7
  let main_cst_8 : FVec F S_ .f32 := constant S_ .f32 0x7F800000#32
  let main_v25 : FVec F S2944x1472 .f32 := broadcastInDim S2944x1472 ![] bcast_S_S2944x1472 main_cst_8
  let main_v26 : IVec S2944x1472 1 := cmpf .olt main_v24 main_v25
  let main_c_9 : IVec S_ 1 := constantI S_ 1 1#1
  let main_v27 : IVec S_ 1 := (fun x v => Host.reduce IntOp.andi x v reducesTo_S2944x1472_S_d0_1 h_S_) main_v26 main_c_9
  let main_v28 : IVec S_ 1 := andi main_v23 main_v27
  let main_v29 : FVec F S1472 .f32 := Host.absf main_arg8
  let main_cst_10 : FVec F S_ .f32 := constant S_ .f32 0x7F800000#32
  let main_v30 : FVec F S1472 .f32 := broadcastInDim S1472 ![] bcast_S_S1472 main_cst_10
  let main_v31 : IVec S1472 1 := cmpf .olt main_v29 main_v30
  let main_c_11 : IVec S_ 1 := constantI S_ 1 1#1
  let main_v32 : IVec S_ 1 := (fun x v => Host.reduce IntOp.andi x v reducesTo_S1472_S_d0 h_S_) main_v31 main_c_11
  let main_v33 : IVec S_ 1 := andi main_v28 main_v32
  fn_part2 (F := F) main_arg9 main_arg10 main_v33

def fn {F : FTy → Type} [FloatOps F] (main_arg0 : IVec S2048 32) (main_arg1 : IVec S2048 32) (main_arg2 : FVec F S64x512 .f32) (main_arg3 : FVec F S100x256 .f32) (main_arg4 : FVec F S20x64 .f32) (main_arg5 : FVec F S1472x2944 .f32) (main_arg6 : FVec F S2944 .f32) (main_arg7 : FVec F S2944x1472 .f32) (main_arg8 : FVec F S1472 .f32) (main_arg9 : FVec F S1472x11 .f32) (main_arg10 : FVec F S11 .f32) : IVec S_ 1 :=
  let main_v0 : FVec F S64x512 .f32 := Host.absf main_arg2
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S100x256 .f32 := Host.absf main_arg3
  let main_cst_0 : FVec F S_ .f32 := constant S_ .f32 0x7F800000#32
  let main_v5 : FVec F S100x256 .f32 := broadcastInDim S100x256 ![] bcast_S_S100x256 main_cst_0
  let main_v6 : IVec S100x256 1 := cmpf .olt main_v4 main_v5
  let main_c_1 : IVec S_ 1 := constantI S_ 1 1#1
  let main_v7 : IVec S_ 1 := (fun x v => Host.reduce IntOp.andi x v reducesTo_S100x256_S_d0_1 h_S_) main_v6 main_c_1
  let main_v8 : IVec S_ 1 := andi main_v3 main_v7
  let main_v9 : FVec F S20x64 .f32 := Host.absf main_arg4
  let main_cst_2 : FVec F S_ .f32 := constant S_ .f32 0x7F800000#32
  let main_v10 : FVec F S20x64 .f32 := broadcastInDim S20x64 ![] bcast_S_S20x64 main_cst_2
  let main_v11 : IVec S20x64 1 := cmpf .olt main_v9 main_v10
  let main_c_3 : IVec S_ 1 := constantI S_ 1 1#1
  let main_v12 : IVec S_ 1 := (fun x v => Host.reduce IntOp.andi x v reducesTo_S20x64_S_d0_1 h_S_) main_v11 main_c_3
  let main_v13 : IVec S_ 1 := andi main_v8 main_v12
  let main_v14 : FVec F S1472x2944 .f32 := Host.absf main_arg5
  let main_cst_4 : FVec F S_ .f32 := constant S_ .f32 0x7F800000#32
  let main_v15 : FVec F S1472x2944 .f32 := broadcastInDim S1472x2944 ![] bcast_S_S1472x2944 main_cst_4
  let main_v16 : IVec S1472x2944 1 := cmpf .olt main_v14 main_v15
  fn_part1 (F := F) main_arg6 main_arg7 main_arg8 main_arg9 main_arg10 main_v13 main_v16
-- ==== Kernel.lean ====
abbrev S2048 : Shape := ⟨1, ![2048]⟩
abbrev S64x512 : Shape := ⟨2, ![64, 512]⟩
abbrev S100x256 : Shape := ⟨2, ![100, 256]⟩
abbrev S20x64 : Shape := ⟨2, ![20, 64]⟩
abbrev S1472x2944 : Shape := ⟨2, ![1472, 2944]⟩
abbrev S2944 : Shape := ⟨1, ![2944]⟩
abbrev S2944x1472 : Shape := ⟨2, ![2944, 1472]⟩
abbrev S1472 : Shape := ⟨1, ![1472]⟩
abbrev S1472x11 : Shape := ⟨2, ![1472, 11]⟩
abbrev S11 : Shape := ⟨1, ![11]⟩
abbrev S_ : Shape := ⟨0, ![]⟩
abbrev S2048x1 : Shape := ⟨2, ![2048, 1]⟩
abbrev S2048x256 : Shape := ⟨2, ![2048, 256]⟩
abbrev S2048x64 : Shape := ⟨2, ![2048, 64]⟩
abbrev S2048x320 : Shape := ⟨2, ![2048, 320]⟩
abbrev S64x32x320 : Shape := ⟨3, ![64, 32, 320]⟩
abbrev S64x320 : Shape := ⟨2, ![64, 320]⟩
abbrev S64x1x512 : Shape := ⟨3, ![64, 1, 512]⟩
abbrev S64x1x320 : Shape := ⟨3, ![64, 1, 320]⟩
abbrev S320x2944 : Shape := ⟨2, ![320, 2944]⟩
abbrev S512x2944 : Shape := ⟨2, ![512, 2944]⟩
abbrev S1472x128 : Shape := ⟨2, ![1472, 128]⟩
abbrev S1 : Shape := ⟨1, ![1]⟩
abbrev S128 : Shape := ⟨1, ![128]⟩
abbrev S64x1024x128 : Shape := ⟨3, ![64, 1024, 128]⟩
abbrev S1x32x320 : Shape := ⟨3, ![1, 32, 320]⟩
abbrev S1x1x512 : Shape := ⟨3, ![1, 1, 512]⟩
abbrev S1x1x320 : Shape := ⟨3, ![1, 1, 320]⟩
abbrev S1x1024x128 : Shape := ⟨3, ![1, 1024, 128]⟩
abbrev S32x320 : Shape := ⟨2, ![32, 320]⟩
abbrev S1x512 : Shape := ⟨2, ![1, 512]⟩
abbrev S1x320 : Shape := ⟨2, ![1, 320]⟩
abbrev S32x2944 : Shape := ⟨2, ![32, 2944]⟩
abbrev S1x2944 : Shape := ⟨2, ![1, 2944]⟩
abbrev S32x1x2944 : Shape := ⟨3, ![32, 1, 2944]⟩
abbrev S1x32x2944 : Shape := ⟨3, ![1, 32, 2944]⟩
abbrev S32x32x2944 : Shape := ⟨3, ![32, 32, 2944]⟩
abbrev S1x1x2944 : Shape := ⟨3, ![1, 1, 2944]⟩
abbrev S1024x2944 : Shape := ⟨2, ![1024, 2944]⟩
abbrev S1024x1472 : Shape := ⟨2, ![1024, 1472]⟩
abbrev S1x1472 : Shape := ⟨2, ![1, 1472]⟩
abbrev S1024x128 : Shape := ⟨2, ![1024, 128]⟩
abbrev S1x128 : Shape := ⟨2, ![1, 128]⟩
abbrev S32x32x128 : Shape := ⟨3, ![32, 32, 128]⟩
abbrev S64x1024x11 : Shape := ⟨3, ![64, 1024, 11]⟩
abbrev S65536x11 : Shape := ⟨2, ![65536, 11]⟩

abbrev nBuf : Space → Nat
  | .hbm => 61
  | .vmem => 17
  | .smem => 0
  | _ => 0

abbrev bufTy : (tb : Table) → Fin (tcTables nBuf tb) → BufTy
  | .hbm, ⟨0, _⟩ => ⟨S2048, .i32⟩
  | .hbm, ⟨1, _⟩ => ⟨S2048, .i32⟩
  | .hbm, ⟨2, _⟩ => ⟨S64x512, .f32⟩
  | .hbm, ⟨3, _⟩ => ⟨S100x256, .f32⟩
  | .hbm, ⟨4, _⟩ => ⟨S20x64, .f32⟩
  | .hbm, ⟨5, _⟩ => ⟨S1472x2944, .f32⟩
  | .hbm, ⟨6, _⟩ => ⟨S2944, .f32⟩
  | .hbm, ⟨7, _⟩ => ⟨S2944x1472, .f32⟩
  | .hbm, ⟨8, _⟩ => ⟨S1472, .f32⟩
  | .hbm, ⟨9, _⟩ => ⟨S1472x11, .f32⟩
  | .hbm, ⟨10, _⟩ => ⟨S11, .f32⟩
  | .hbm, ⟨11, _⟩ => ⟨S_, .i32⟩
  | .hbm, ⟨12, _⟩ => ⟨S2048, .i32⟩
  | .hbm, ⟨13, _⟩ => ⟨S2048, .i1⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S2048x1, .i32⟩
  | .hbm, ⟨19, _⟩ => ⟨S2048x256, .f32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .i32⟩
  | .hbm, ⟨27, _⟩ => ⟨S2048x1, .i32⟩
  | .hbm, ⟨28, _⟩ => ⟨S2048x64, .f32⟩
  | .hbm, ⟨29, _⟩ => ⟨S2048x320, .f32⟩
  | .hbm, ⟨30, _⟩ => ⟨S64x32x320, .f32⟩
  | .hbm, ⟨31, _⟩ => ⟨S_, .f32⟩
  | .hbm, ⟨32, _⟩ => ⟨S64x320, .f32⟩
  | .hbm, ⟨33, _⟩ => ⟨S_, .f32⟩
  | .hbm, ⟨34, _⟩ => ⟨S64x320, .f32⟩
  | .hbm, ⟨35, _⟩ => ⟨S64x320, .f32⟩
  | .hbm, ⟨36, _⟩ => ⟨S64x1x512, .f32⟩
  | .hbm, ⟨37, _⟩ => ⟨S64x1x320, .f32⟩
  | .hbm, ⟨38, _⟩ => ⟨S320x2944, .f32⟩
  | .hbm, ⟨39, _⟩ => ⟨S320x2944, .bf16⟩
  | .hbm, ⟨40, _⟩ => ⟨S320x2944, .f32⟩
  | .hbm, ⟨41, _⟩ => ⟨S320x2944, .bf16⟩
  | .hbm, ⟨42, _⟩ => ⟨S512x2944, .f32⟩
  | .hbm, ⟨43, _⟩ => ⟨S512x2944, .bf16⟩
  | .hbm, ⟨44, _⟩ => ⟨S320x2944, .f32⟩
  | .hbm, ⟨45, _⟩ => ⟨S320x2944, .bf16⟩
  | .hbm, ⟨46, _⟩ => ⟨S2944x1472, .bf16⟩
  | .hbm, ⟨47, _⟩ => ⟨S_, .f32⟩
  | .hbm, ⟨48, _⟩ => ⟨S1472x128, .f32⟩
  | .hbm, ⟨49, _⟩ => ⟨S_, .i32⟩
  | .hbm, ⟨50, _⟩ => ⟨S1, .i32⟩
  | .hbm, ⟨51, _⟩ => ⟨S1472x128, .f32⟩
  | .hbm, ⟨52, _⟩ => ⟨S1472x128, .bf16⟩
  | .hbm, ⟨53, _⟩ => ⟨S_, .f32⟩
  | .hbm, ⟨54, _⟩ => ⟨S128, .f32⟩
  | .hbm, ⟨55, _⟩ => ⟨S_, .i32⟩
  | .hbm, ⟨56, _⟩ => ⟨S1, .i32⟩
  | .hbm, ⟨57, _⟩ => ⟨S128, .f32⟩
  | .hbm, ⟨58, _⟩ => ⟨S64x1024x128, .f32⟩
  | .hbm, ⟨59, _⟩ => ⟨S64x1024x11, .f32⟩
  | .hbm, ⟨60, _⟩ => ⟨S65536x11, .f32⟩
  | .local _ .vmem, ⟨0, _⟩ => ⟨S1x32x320, .f32⟩
  | .local _ .vmem, ⟨1, _⟩ => ⟨S1x32x320, .f32⟩
  | .local _ .vmem, ⟨2, _⟩ => ⟨S1x1x512, .f32⟩
  | .local _ .vmem, ⟨3, _⟩ => ⟨S1x1x512, .f32⟩
  | .local _ .vmem, ⟨4, _⟩ => ⟨S1x1x320, .f32⟩
  | .local _ .vmem, ⟨5, _⟩ => ⟨S1x1x320, .f32⟩
  | .local _ .vmem, ⟨6, _⟩ => ⟨S320x2944, .bf16⟩
  | .local _ .vmem, ⟨7, _⟩ => ⟨S320x2944, .bf16⟩
  | .local _ .vmem, ⟨8, _⟩ => ⟨S512x2944, .bf16⟩
  | .local _ .vmem, ⟨9, _⟩ => ⟨S320x2944, .bf16⟩
  | .local _ .vmem, ⟨10, _⟩ => ⟨S2944, .f32⟩
  | .local _ .vmem, ⟨11, _⟩ => ⟨S2944x1472, .bf16⟩
  | .local _ .vmem, ⟨12, _⟩ => ⟨S1472, .f32⟩
  | .local _ .vmem, ⟨13, _⟩ => ⟨S1472x128, .bf16⟩
  | .local _ .vmem, ⟨14, _⟩ => ⟨S128, .f32⟩
  | .local _ .vmem, ⟨15, _⟩ => ⟨S1x1024x128, .f32⟩
  | .local _ .vmem, ⟨16, _⟩ => ⟨S1x1024x128, .f32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S320x2944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S320x2944 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2944 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S320x2944 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2944 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2944x1472 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1472 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1472x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  concatenates_S2048x256_S2048x64_S2048x320_d1 : Shape.Concatenates [S2048x256, S2048x64] S2048x320 1
  shapeCasts_S2048x320_S64x32x320 : S2048x320.ShapeCasts S64x32x320
  reducesTo_S64x32x320_S64x320_d1 : S64x32x320.ReducesTo [1] S64x320
  h_S_ : 0 < S_.numel
  bcast_S_S64x320 : S_.BroadcastsInDim S64x320 (![] : Fin 0 → Fin S64x320.rank)
  bcast_S64x512_S64x1x512_0_2 : S64x512.BroadcastsInDim S64x1x512 (![0, 2] : Fin 2 → Fin S64x1x512.rank)
  bcast_S64x320_S64x1x320_0_2 : S64x320.BroadcastsInDim S64x1x320 (![0, 2] : Fin 2 → Fin S64x1x320.rank)
  slices_S1472x2944_S320x2944_0_0 : S1472x2944.Slices ![0, 0] S320x2944
  bitsLt_bf16_f32 : FTy.bits .bf16 < FTy.bits .f32
  slices_S1472x2944_S320x2944_320_0 : S1472x2944.Slices ![320, 0] S320x2944
  slices_S1472x2944_S512x2944_640_0 : S1472x2944.Slices ![640, 0] S512x2944
  slices_S1472x2944_S320x2944_1152_0 : S1472x2944.Slices ![1152, 0] S320x2944
  bcast_S_S1472x128 : S_.BroadcastsInDim S1472x128 (![] : Fin 0 → Fin S1472x128.rank)
  bcast_S_S1 : S_.BroadcastsInDim S1 (![] : Fin 0 → Fin S1.rank)
  bcast_S_S128 : S_.BroadcastsInDim S128 (![] : Fin 0 → Fin S128.rank)
  inb_S1x32x320_S1x32x320_0_0_0 : ∀ a, (![0, 0, 0] : Fin 3 → Nat) a + S1x32x320.size a ≤ S1x32x320.size a
  h_S1x32x320 : 0 < S1x32x320.numel
  shapeCasts_S1x32x320_S32x320 : S1x32x320.ShapeCasts S32x320
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  inb_S1x1x320_S1x1x320_0_0_0 : ∀ a, (![0, 0, 0] : Fin 3 → Nat) a + S1x1x320.size a ≤ S1x1x320.size a
  h_S1x1x320 : 0 < S1x1x320.numel
  shapeCasts_S1x1x320_S1x320 : S1x1x320.ShapeCasts S1x320
  inb_S320x2944_S320x2944_0_0 : ∀ a, (![0, 0] : Fin 2 → Nat) a + S320x2944.size a ≤ S320x2944.size a
  h_S320x2944 : 0 < S320x2944.numel
  shapeCasts_S320x2944_S320x2944 : S320x2944.ShapeCasts S320x2944
  inb_S512x2944_S512x2944_0_0 : ∀ a, (![0, 0] : Fin 2 → Nat) a + S512x2944.size a ≤ S512x2944.size a
  h_S512x2944 : 0 < S512x2944.numel
  shapeCasts_S512x2944_S512x2944 : S512x2944.ShapeCasts S512x2944
  shapeCasts_S1x2944_S2944 : S1x2944.ShapeCasts S2944
  inb_S2944_S2944_0 : ∀ a, (![0] : Fin 1 → Nat) a + S2944.size a ≤ S2944.size a
  h_S2944 : 0 < S2944.numel
  shapeCasts_S32x2944_S32x1x2944 : S32x2944.ShapeCasts S32x1x2944
  shapeCasts_S32x2944_S1x32x2944 : S32x2944.ShapeCasts S1x32x2944
  broadcasts_S32x1x2944_S32x32x2944 : S32x1x2944.Broadcasts S32x32x2944
  broadcasts_S1x32x2944_S32x32x2944 : S1x32x2944.Broadcasts S32x32x2944
  shapeCasts_S2944_S1x1x2944 : S2944.ShapeCasts S1x1x2944
  broadcasts_S1x1x2944_S32x32x2944 : S1x1x2944.Broadcasts S32x32x2944
  shapeCasts_S32x32x2944_S1024x2944 : S32x32x2944.ShapeCasts S1024x2944
  inb_S2944x1472_S2944x1472_0_0 : ∀ a, (![0, 0] : Fin 2 → Nat) a + S2944x1472.size a ≤ S2944x1472.size a
  h_S2944x1472 : 0 < S2944x1472.numel
  shapeCasts_S2944x1472_S2944x1472 : S2944x1472.ShapeCasts S2944x1472
  inb_S1472_S1472_0 : ∀ a, (![0] : Fin 1 → Nat) a + S1472.size a ≤ S1472.size a
  h_S1472 : 0 < S1472.numel
  shapeCasts_S1472_S1x1472 : S1472.ShapeCasts S1x1472
  broadcasts_S1x1472_S1024x1472 : S1x1472.Broadcasts S1024x1472
  inb_S1472x128_S1472x128_0_0 : ∀ a, (![0, 0] : Fin 2 → Nat) a + S1472x128.size a ≤ S1472x128.size a
  h_S1472x128 : 0 < S1472x128.numel
  shapeCasts_S1472x128_S1472x128 : S1472x128.ShapeCasts S1472x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S1024x128 : S1x128.Broadcasts S1024x128
  shapeCasts_S1024x128_S32x32x128 : S1024x128.ShapeCasts S32x32x128
  transposes_S32x32x128_p1_0_2_S32x32x128 : S32x32x128.Transposes [1, 0, 2] S32x32x128
  shapeCasts_S32x32x128_S1024x128 : S32x32x128.ShapeCasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  slices_S64x1024x128_S64x1024x11_0_0_0 : S64x1024x128.Slices ![0, 0, 0] S64x1024x11
  shapeCasts_S64x1024x11_S65536x11 : S64x1024x11.ShapeCasts S65536x11
  gather_S100x256_S2048x1_S2048x256_1_0_n_n_0_1_1256_wf : GatherDims.WF S100x256 S2048x1 S2048x256 [1] [0] [] [0] [] 1 ![1, 256]
  gather_S20x64_S2048x1_S2048x64_1_0_n_n_0_1_164_wf : GatherDims.WF S20x64 S2048x1 S2048x64 [1] [0] [] [0] [] 1 ![1, 64]
  scatter_S1472x128_S1_S1472x11_01_n_1_0_wf : ScatterDims.WF S1472x128 S1 S1472x11 [0, 1] [] [1] 0
  scatter_S128_S1_S11_0_n_0_0_wf : ScatterDims.WF S128 S1 S11 [0] [] [0] 0
  dot_S32x320_S320x2944_S32x2944_1_0_0_1_n_n_wf : DotDims.WF S32x320 S320x2944 S32x2944 [1] [0] [0] [1] [] []
  dot_S1x512_S512x2944_S1x2944_1_0_0_1_n_n_wf : DotDims.WF S1x512 S512x2944 S1x2944 [1] [0] [0] [1] [] []
  dot_S1x320_S320x2944_S1x2944_1_0_0_1_n_n_wf : DotDims.WF S1x320 S320x2944 S1x2944 [1] [0] [0] [1] [] []
  dot_S1024x2944_S2944x1472_S1024x1472_1_0_0_1_n_n_wf : DotDims.WF S1024x2944 S2944x1472 S1024x1472 [1] [0] [0] [1] [] []
  dot_S1024x1472_S1472x128_S1024x128_1_0_0_1_n_n_wf : DotDims.WF S1024x1472 S1472x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x320.size a ≤ S64x32x320.size a
  hwx0_0 : ∀ i : grid0.Coords, EltTy.bits .f32 = 32 ∨ (Rect.block (s := S64x32x320) S1x32x320.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S64x1x512.size a
  hwx0_1 : ∀ i : grid0.Coords, EltTy.bits .f32 = 32 ∨ (Rect.block (s := S64x1x512) S1x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x320.size a ≤ S64x1x320.size a
  hwx0_2 : ∀ i : grid0.Coords, EltTy.bits .f32 = 32 ∨ (Rect.block (s := S64x1x320) S1x1x320.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S320x2944.size a ≤ S320x2944.size a
  hwx0_3 : ∀ i : grid0.Coords, EltTy.bits .bf16 = 32 ∨ (Rect.block (s := S320x2944) S320x2944.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S320x2944.size a ≤ S320x2944.size a
  hwx0_4 : ∀ i : grid0.Coords, EltTy.bits .bf16 = 32 ∨ (Rect.block (s := S320x2944) S320x2944.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x2944.size a ≤ S512x2944.size a
  hwx0_5 : ∀ i : grid0.Coords, EltTy.bits .bf16 = 32 ∨ (Rect.block (s := S512x2944) S512x2944.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S320x2944.size a ≤ S320x2944.size a
  hwx0_6 : ∀ i : grid0.Coords, EltTy.bits .bf16 = 32 ∨ (Rect.block (s := S320x2944) S320x2944.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2944.size a ≤ S2944.size a
  hwx0_7 : ∀ i : grid0.Coords, EltTy.bits .f32 = 32 ∨ (Rect.block (s := S2944) S2944.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2944x1472.size a ≤ S2944x1472.size a
  hwx0_8 : ∀ i : grid0.Coords, EltTy.bits .bf16 = 32 ∨ (Rect.block (s := S2944x1472) S2944x1472.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1472.size a ≤ S1472.size a
  hwx0_9 : ∀ i : grid0.Coords, EltTy.bits .f32 = 32 ∨ (Rect.block (s := S1472) S1472.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1472x128.size a ≤ S1472x128.size a
  hwx0_10 : ∀ i : grid0.Coords, EltTy.bits .bf16 = 32 ∨ (Rect.block (s := S1472x128) S1472x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1024x128.size a ≤ S64x1024x128.size a
  hwx0_12 : ∀ i : grid0.Coords, EltTy.bits .f32 = 32 ∨ (Rect.block (s := S64x1024x128) S1x1024x128.size (cc0_transform_12 i) (hinb0_12 i)).WholeWords (EltTy.packing .f32)

variable [Facts₀]

def gather_S100x256_S2048x1_S2048x256_1_0_n_n_0_1_1256 : GatherDims S100x256 S2048x1 S2048x256 where
  offsetDims := [1]
  collapsedSliceDims := [0]
  operandBatchingDims := []
  startIndicesBatchingDims := []
  startIndexMap := [0]
  indexVectorDim := 1
  sliceSizes := ![1, 256]
  wf := gather_S100x256_S2048x1_S2048x256_1_0_n_n_0_1_1256_wf
def gather_S20x64_S2048x1_S2048x64_1_0_n_n_0_1_164 : GatherDims S20x64 S2048x1 S2048x64 where
  offsetDims := [1]
  collapsedSliceDims := [0]
  operandBatchingDims := []
  startIndicesBatchingDims := []
  startIndexMap := [0]
  indexVectorDim := 1
  sliceSizes := ![1, 64]
  wf := gather_S20x64_S2048x1_S2048x64_1_0_n_n_0_1_164_wf
def scatter_S1472x128_S1_S1472x11_01_n_1_0 : ScatterDims S1472x128 S1 S1472x11 where
  updateWindowDims := [0, 1]
  insertedWindowDims := []
  scatterDimsToOperandDims := [1]
  indexVectorDim := 0
  wf := scatter_S1472x128_S1_S1472x11_01_n_1_0_wf
def scatter_S128_S1_S11_0_n_0_0 : ScatterDims S128 S1 S11 where
  updateWindowDims := [0]
  insertedWindowDims := []
  scatterDimsToOperandDims := [0]
  indexVectorDim := 0
  wf := scatter_S128_S1_S11_0_n_0_0_wf
def dot_S32x320_S320x2944_S32x2944_1_0_0_1_n_n : DotDims S32x320 S320x2944 S32x2944 where
  lhsContracting := [1]
  rhsContracting := [0]
  lhsNonContracting := [0]
  rhsNonContracting := [1]
  lhsBatch := []
  rhsBatch := []
  wf := dot_S32x320_S320x2944_S32x2944_1_0_0_1_n_n_wf
def dot_S1x512_S512x2944_S1x2944_1_0_0_1_n_n : DotDims S1x512 S512x2944 S1x2944 where
  lhsContracting := [1]
  rhsContracting := [0]
  lhsNonContracting := [0]
  rhsNonContracting := [1]
  lhsBatch := []
  rhsBatch := []
  wf := dot_S1x512_S512x2944_S1x2944_1_0_0_1_n_n_wf
def dot_S1x320_S320x2944_S1x2944_1_0_0_1_n_n : DotDims S1x320 S320x2944 S1x2944 where
  lhsContracting := [1]
  rhsContracting := [0]
  lhsNonContracting := [0]
  rhsNonContracting := [1]
  lhsBatch := []
  rhsBatch := []
  wf := dot_S1x320_S320x2944_S1x2944_1_0_0_1_n_n_wf
def dot_S1024x2944_S2944x1472_S1024x1472_1_0_0_1_n_n : DotDims S1024x2944 S2944x1472 S1024x1472 where
  lhsContracting := [1]
  rhsContracting := [0]
  lhsNonContracting := [0]
  rhsNonContracting := [1]
  lhsBatch := []
  rhsBatch := []
  wf := dot_S1024x2944_S2944x1472_S1024x1472_1_0_0_1_n_n_wf
def dot_S1024x1472_S1472x128_S1024x128_1_0_0_1_n_n : DotDims S1024x1472 S1472x128 S1024x128 where
  lhsContracting := [1]
  rhsContracting := [0]
  lhsNonContracting := [0]
  rhsNonContracting := [1]
  lhsBatch := []
  rhsBatch := []
  wf := dot_S1024x1472_S1472x128_S1024x128_1_0_0_1_n_n_wf

abbrev win0_0 : Pipeline.Window sig grid0 :=
  Pipeline.Window.ofSpec (Memref.whole main_v15) S1x32x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x1x320.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S320x2944.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S320x2944.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S512x2944.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S320x2944.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S2944.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S2944x1472.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S1472.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v33) S1472x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v36) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v37) S1x1024x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S2048 : Shape := ⟨1, ![2048]⟩
abbrev S64x512 : Shape := ⟨2, ![64, 512]⟩
abbrev S100x256 : Shape := ⟨2, ![100, 256]⟩
abbrev S20x64 : Shape := ⟨2, ![20, 64]⟩
abbrev S1472x2944 : Shape := ⟨2, ![1472, 2944]⟩
abbrev S2944 : Shape := ⟨1, ![2944]⟩
abbrev S2944x1472 : Shape := ⟨2, ![2944, 1472]⟩
abbrev S1472 : Shape := ⟨1, ![1472]⟩
abbrev S1472x11 : Shape := ⟨2, ![1472, 11]⟩
abbrev S11 : Shape := ⟨1, ![11]⟩
abbrev S_ : Shape := ⟨0, ![]⟩
abbrev S2048x1 : Shape := ⟨2, ![2048, 1]⟩
abbrev S2048x256 : Shape := ⟨2, ![2048, 256]⟩
abbrev S2048x64 : Shape := ⟨2, ![2048, 64]⟩
abbrev S2048x320 : Shape := ⟨2, ![2048, 320]⟩
abbrev S64x32x320 : Shape := ⟨3, ![64, 32, 320]⟩
abbrev S64x320 : Shape := ⟨2, ![64, 320]⟩
abbrev S64x32x1x320 : Shape := ⟨4, ![64, 32, 1, 320]⟩
abbrev S64x32x32x320 : Shape := ⟨4, ![64, 32, 32, 320]⟩
abbrev S64x1x32x320 : Shape := ⟨4, ![64, 1, 32, 320]⟩
abbrev S64x1x1x512 : Shape := ⟨4, ![64, 1, 1, 512]⟩
abbrev S64x32x32x512 : Shape := ⟨4, ![64, 32, 32, 512]⟩
abbrev S64x1x1x320 : Shape := ⟨4, ![64, 1, 1, 320]⟩
abbrev S64x32x32x1472 : Shape := ⟨4, ![64, 32, 32, 1472]⟩
abbrev S64x32x32x2944 : Shape := ⟨4, ![64, 32, 32, 2944]⟩
abbrev S1x1x1x2944 : Shape := ⟨4, ![1, 1, 1, 2944]⟩
abbrev S1x1x1x1472 : Shape := ⟨4, ![1, 1, 1, 1472]⟩
abbrev S64x32x32x11 : Shape := ⟨4, ![64, 32, 32, 11]⟩
abbrev S1x1x1x11 : Shape := ⟨4, ![1, 1, 1, 11]⟩
abbrev S65536x11 : Shape := ⟨2, ![65536, 11]⟩

abbrev nBuf : Space → Nat
  | .hbm => 69
  | .vmem => 0
  | .smem => 0
  | _ => 0

abbrev bufTy : (tb : Table) → Fin (tcTables nBuf tb) → BufTy
  | .hbm, ⟨0, _⟩ => ⟨S2048, .i32⟩
  | .hbm, ⟨1, _⟩ => ⟨S2048, .i32⟩
  | .hbm, ⟨2, _⟩ => ⟨S64x512, .f32⟩
  | .hbm, ⟨3, _⟩ => ⟨S100x256, .f32⟩
  | .hbm, ⟨4, _⟩ => ⟨S20x64, .f32⟩
  | .hbm, ⟨5, _⟩ => ⟨S1472x2944, .f32⟩
  | .hbm, ⟨6, _⟩ => ⟨S2944, .f32⟩
  | .hbm, ⟨7, _⟩ => ⟨S2944x1472, .f32⟩
  | .hbm, ⟨8, _⟩ => ⟨S1472, .f32⟩
  | .hbm, ⟨9, _⟩ => ⟨S1472x11, .f32⟩
  | .hbm, ⟨10, _⟩ => ⟨S11, .f32⟩
  | .hbm, ⟨11, _⟩ => ⟨S_, .i32⟩
  | .hbm, ⟨12, _⟩ => ⟨S2048, .i32⟩
  | .hbm, ⟨13, _⟩ => ⟨S2048, .i1⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S2048x1, .i32⟩
  | .hbm, ⟨19, _⟩ => ⟨S2048x256, .f32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .i32⟩
  | .hbm, ⟨27, _⟩ => ⟨S2048x1, .i32⟩
  | .hbm, ⟨28, _⟩ => ⟨S2048x64, .f32⟩
  | .hbm, ⟨29, _⟩ => ⟨S2048x320, .f32⟩
  | .hbm, ⟨30, _⟩ => ⟨S64x32x320, .f32⟩
  | .hbm, ⟨31, _⟩ => ⟨S_, .f32⟩
  | .hbm, ⟨32, _⟩ => ⟨S64x320, .f32⟩
  | .hbm, ⟨33, _⟩ => ⟨S_, .f32⟩
  | .hbm, ⟨34, _⟩ => ⟨S64x320, .f32⟩
  | .hbm, ⟨35, _⟩ => ⟨S64x320, .f32⟩
  | .hbm, ⟨36, _⟩ => ⟨S64x32x1x320, .f32⟩
  | .hbm, ⟨37, _⟩ => ⟨S64x32x32x320, .f32⟩
  | .hbm, ⟨38, _⟩ => ⟨S64x1x32x320, .f32⟩
  | .hbm, ⟨39, _⟩ => ⟨S64x32x32x320, .f32⟩
  | .hbm, ⟨40, _⟩ => ⟨S64x1x1x512, .f32⟩
  | .hbm, ⟨41, _⟩ => ⟨S64x32x32x512, .f32⟩
  | .hbm, ⟨42, _⟩ => ⟨S64x1x1x320, .f32⟩
  | .hbm, ⟨43, _⟩ => ⟨S64x32x32x320, .f32⟩
  | .hbm, ⟨44, _⟩ => ⟨S64x32x32x1472, .f32⟩
  | .hbm, ⟨45, _⟩ => ⟨S64x32x32x2944, .f32⟩
  | .hbm, ⟨46, _⟩ => ⟨S1x1x1x2944, .f32⟩
  | .hbm, ⟨47, _⟩ => ⟨S64x32x32x2944, .f32⟩
  | .hbm, ⟨48, _⟩ => ⟨S64x32x32x2944, .f32⟩
  | .hbm, ⟨49, _⟩ => ⟨S_, .f32⟩
  | .hbm, ⟨50, _⟩ => ⟨S64x32x32x2944, .f32⟩
  | .hbm, ⟨51, _⟩ => ⟨S64x32x32x2944, .f32⟩
  | .hbm, ⟨52, _⟩ => ⟨S64x32x32x1472, .f32⟩
  | .hbm, ⟨53, _⟩ => ⟨S1x1x1x1472, .f32⟩
  | .hbm, ⟨54, _⟩ => ⟨S64x32x32x1472, .f32⟩
  | .hbm, ⟨55, _⟩ => ⟨S64x32x32x1472, .f32⟩
  | .hbm, ⟨56, _⟩ => ⟨S_, .f32⟩
  | .hbm, ⟨57, _⟩ => ⟨S64x32x32x1472, .f32⟩
  | .hbm, ⟨58, _⟩ => ⟨S64x32x32x1472, .f32⟩
  | .hbm, ⟨59, _⟩ => ⟨S64x32x32x11, .f32⟩
  | .hbm, ⟨60, _⟩ => ⟨S1x1x1x11, .f32⟩
  | .hbm, ⟨61, _⟩ => ⟨S64x32x32x11, .f32⟩
  | .hbm, ⟨62, _⟩ => ⟨S64x32x32x11, .f32⟩
  | .hbm, ⟨63, _⟩ => ⟨S64x32x32x11, .f32⟩
  | .hbm, ⟨64, _⟩ => ⟨S64x32x32x11, .f32⟩
  | .hbm, ⟨65, _⟩ => ⟨S_, .f32⟩
  | .hbm, ⟨66, _⟩ => ⟨S64x32x32x11, .f32⟩
  | .hbm, ⟨67, _⟩ => ⟨S64x32x32x11, .f32⟩
  | .hbm, ⟨68, _⟩ => ⟨S65536x11, .f32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call0_cst : Ref sig .tc := ⟨.hbm, 49, rfl⟩
abbrev main_call0_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_cst : Ref sig .tc := ⟨.hbm, 56, rfl⟩
abbrev main_call1_v0 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_4 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  concatenates_S2048x256_S2048x64_S2048x320_d1 : Shape.Concatenates [S2048x256, S2048x64] S2048x320 1
  shapeCasts_S2048x320_S64x32x320 : S2048x320.ShapeCasts S64x32x320
  reducesTo_S64x32x320_S64x320_d1 : S64x32x320.ReducesTo [1] S64x320
  h_S_ : 0 < S_.numel
  bcast_S_S64x320 : S_.BroadcastsInDim S64x320 (![] : Fin 0 → Fin S64x320.rank)
  bcast_S64x32x320_S64x32x1x320_0_1_3 : S64x32x320.BroadcastsInDim S64x32x1x320 (![0, 1, 3] : Fin 3 → Fin S64x32x1x320.rank)
  bcast_S64x32x1x320_S64x32x32x320_0_1_2_3 : S64x32x1x320.BroadcastsInDim S64x32x32x320 (![0, 1, 2, 3] : Fin 4 → Fin S64x32x32x320.rank)
  bcast_S64x32x320_S64x1x32x320_0_2_3 : S64x32x320.BroadcastsInDim S64x1x32x320 (![0, 2, 3] : Fin 3 → Fin S64x1x32x320.rank)
  bcast_S64x1x32x320_S64x32x32x320_0_1_2_3 : S64x1x32x320.BroadcastsInDim S64x32x32x320 (![0, 1, 2, 3] : Fin 4 → Fin S64x32x32x320.rank)
  bcast_S64x512_S64x1x1x512_0_3 : S64x512.BroadcastsInDim S64x1x1x512 (![0, 3] : Fin 2 → Fin S64x1x1x512.rank)
  bcast_S64x1x1x512_S64x32x32x512_0_1_2_3 : S64x1x1x512.BroadcastsInDim S64x32x32x512 (![0, 1, 2, 3] : Fin 4 → Fin S64x32x32x512.rank)
  bcast_S64x320_S64x1x1x320_0_3 : S64x320.BroadcastsInDim S64x1x1x320 (![0, 3] : Fin 2 → Fin S64x1x1x320.rank)
  bcast_S64x1x1x320_S64x32x32x320_0_1_2_3 : S64x1x1x320.BroadcastsInDim S64x32x32x320 (![0, 1, 2, 3] : Fin 4 → Fin S64x32x32x320.rank)
  concatenates_S64x32x32x320_S64x32x32x320_S64x32x32x512_S64x32x32x320_S64x32x32x1472_d3 : Shape.Concatenates [S64x32x32x320, S64x32x32x320, S64x32x32x512, S64x32x32x320] S64x32x32x1472 3
  bcast_S2944_S1x1x1x2944_3 : S2944.BroadcastsInDim S1x1x1x2944 (![3] : Fin 1 → Fin S1x1x1x2944.rank)
  bcast_S1x1x1x2944_S64x32x32x2944_0_1_2_3 : S1x1x1x2944.BroadcastsInDim S64x32x32x2944 (![0, 1, 2, 3] : Fin 4 → Fin S64x32x32x2944.rank)
  bcast_S_S64x32x32x2944 : S_.BroadcastsInDim S64x32x32x2944 (![] : Fin 0 → Fin S64x32x32x2944.rank)
  bcast_S1472_S1x1x1x1472_3 : S1472.BroadcastsInDim S1x1x1x1472 (![3] : Fin 1 → Fin S1x1x1x1472.rank)
  bcast_S1x1x1x1472_S64x32x32x1472_0_1_2_3 : S1x1x1x1472.BroadcastsInDim S64x32x32x1472 (![0, 1, 2, 3] : Fin 4 → Fin S64x32x32x1472.rank)
  bcast_S_S64x32x32x1472 : S_.BroadcastsInDim S64x32x32x1472 (![] : Fin 0 → Fin S64x32x32x1472.rank)
  bcast_S11_S1x1x1x11_3 : S11.BroadcastsInDim S1x1x1x11 (![3] : Fin 1 → Fin S1x1x1x11.rank)
  bcast_S1x1x1x11_S64x32x32x11_0_1_2_3 : S1x1x1x11.BroadcastsInDim S64x32x32x11 (![0, 1, 2, 3] : Fin 4 → Fin S64x32x32x11.rank)
  transposes_S64x32x32x11_S64x32x32x11_0_2_1_3 : S64x32x32x11.Transposes [0, 2, 1, 3] S64x32x32x11
  bcast_S_S64x32x32x11 : S_.BroadcastsInDim S64x32x32x11 (![] : Fin 0 → Fin S64x32x32x11.rank)
  shapeCasts_S64x32x32x11_S65536x11 : S64x32x32x11.ShapeCasts S65536x11
  gather_S100x256_S2048x1_S2048x256_1_0_n_n_0_1_1256_wf : GatherDims.WF S100x256 S2048x1 S2048x256 [1] [0] [] [0] [] 1 ![1, 256]
  gather_S20x64_S2048x1_S2048x64_1_0_n_n_0_1_164_wf : GatherDims.WF S20x64 S2048x1 S2048x64 [1] [0] [] [0] [] 1 ![1, 64]
  dot_S64x32x32x1472_S1472x2944_S64x32x32x2944_3_0_012_1_n_n_wf : DotDims.WF S64x32x32x1472 S1472x2944 S64x32x32x2944 [3] [0] [0, 1, 2] [1] [] []
  dot_S64x32x32x2944_S2944x1472_S64x32x32x1472_3_0_012_1_n_n_wf : DotDims.WF S64x32x32x2944 S2944x1472 S64x32x32x1472 [3] [0] [0, 1, 2] [1] [] []
  dot_S64x32x32x1472_S1472x11_S64x32x32x11_3_0_012_1_n_n_wf : DotDims.WF S64x32x32x1472 S1472x11 S64x32x32x11 [3] [0] [0, 1, 2] [1] [] []

variable [Facts₀]

def gather_S100x256_S2048x1_S2048x256_1_0_n_n_0_1_1256 : GatherDims S100x256 S2048x1 S2048x256 where
  offsetDims := [1]
  collapsedSliceDims := [0]
  operandBatchingDims := []
  startIndicesBatchingDims := []
  startIndexMap := [0]
  indexVectorDim := 1
  sliceSizes := ![1, 256]
  wf := gather_S100x256_S2048x1_S2048x256_1_0_n_n_0_1_1256_wf
def gather_S20x64_S2048x1_S2048x64_1_0_n_n_0_1_164 : GatherDims S20x64 S2048x1 S2048x64 where
  offsetDims := [1]
  collapsedSliceDims := [0]
  operandBatchingDims := []
  startIndicesBatchingDims := []
  startIndexMap := [0]
  indexVectorDim := 1
  sliceSizes := ![1, 64]
  wf := gather_S20x64_S2048x1_S2048x64_1_0_n_n_0_1_164_wf
def dot_S64x32x32x1472_S1472x2944_S64x32x32x2944_3_0_012_1_n_n : DotDims S64x32x32x1472 S1472x2944 S64x32x32x2944 where
  lhsContracting := [3]
  rhsContracting := [0]
  lhsNonContracting := [0, 1, 2]
  rhsNonContracting := [1]
  lhsBatch := []
  rhsBatch := []
  wf := dot_S64x32x32x1472_S1472x2944_S64x32x32x2944_3_0_012_1_n_n_wf
def dot_S64x32x32x2944_S2944x1472_S64x32x32x1472_3_0_012_1_n_n : DotDims S64x32x32x2944 S2944x1472 S64x32x32x1472 where
  lhsContracting := [3]
  rhsContracting := [0]
  lhsNonContracting := [0, 1, 2]
  rhsNonContracting := [1]
  lhsBatch := []
  rhsBatch := []
  wf := dot_S64x32x32x2944_S2944x1472_S64x32x32x1472_3_0_012_1_n_n_wf
def dot_S64x32x32x1472_S1472x11_S64x32x32x11_3_0_012_1_n_n : DotDims S64x32x32x1472 S1472x11 S64x32x32x11 where
  lhsContracting := [3]
  rhsContracting := [0]
  lhsNonContracting := [0, 1, 2]
  rhsNonContracting := [1]
  lhsBatch := []
  rhsBatch := []
  wf := dot_S64x32x32x1472_S1472x11_S64x32x32x11_3_0_012_1_n_n_wf

class Facts : Prop extends Facts₀ where

variable [Facts]
-- ==== Proof.LibScatterSet.lean ====
/-
  An overwriting scatter read at an index.

  A scatter whose combining function keeps the update (`x.at[…].set(u)`) visits the update's entries one after the
  other; entry `j` lands on the operand's index `start j + window j` (axis by axis) when that index lies inside the
  operand, and is dropped otherwise. If exactly one update entry `j₀` lands on a given index `i`, the result there is
  the update at `j₀`, whatever the order of the visit. The statement is for any dimension numbers, index width and
  element type; the fold underneath is stated once for any list and any "write one cell" step.
-/
import Idealize.ShloMosaic.PureOps.ShapeOps
import Idealize.ShloMosaic.Lib.ValueIdx

namespace Cert.ScatterSet

open Idealize.ShloMosaic

/-! ## A fold of single-cell writes -/

section Fold
variable {ι β γ : Type} [DecidableEq β]

/-- A fold of steps each of which writes at most one cell leaves a cell that no step writes as it was. -/
theorem foldl_apply_of_forall_ne {s : (β → γ) → ι → β → γ} {g : ι → Option β} {v : ι → γ}
    (hs : ∀ r n i, s r n i = if g n = some i then v n else r i) (l : List ι) (x : β → γ) (i : β)
    (h : ∀ n ∈ l, g n ≠ some i) : l.foldl s x i = x i := by
  induction l generalizing x with
  | nil => rfl
  | cons a l ih =>
    rw [List.foldl_cons, ih _ (fun n hn => h n (List.mem_cons_of_mem _ hn)), hs,
      if_neg (h a (List.mem_cons_self ..))]

/-- If exactly one step `n₀` of the list writes the cell `i`, the fold leaves `v n₀` there. -/
theorem foldl_apply_of_unique {s : (β → γ) → ι → β → γ} {g : ι → Option β} {v : ι → γ}
    (hs : ∀ r n i, s r n i = if g n = some i then v n else r i) (l : List ι) (x : β → γ) (i : β) (n₀ : ι)
    (h₀ : n₀ ∈ l) (hp : g n₀ = some i) (hu : ∀ n ∈ l, g n = some i → n = n₀) : l.foldl s x i = v n₀ := by
  induction l generalizing x with
  | nil => exact absurd h₀ (List.not_mem_nil)
  | cons a l ih =>
    rw [List.foldl_cons]
    by_cases hmem : n₀ ∈ l
    · exact ih _ hmem (fun n hn => hu n (List.mem_cons_of_mem _ hn))
    · have ha : a = n₀ := by
        rcases List.mem_cons.mp h₀ with h | h
        · exact h.symm
        · exact absurd h hmem
      rw [foldl_apply_of_forall_ne hs l _ i (fun n hn hg => hmem (hu n (List.mem_cons_of_mem _ hn) hg ▸ hn)), hs,
        ha, if_pos hp]

end Fold

/-! ## The scatter -/

section Scatter
variable {s si u : Shape} {w : ℕ} {α : Type}

/-- Update entry `j` lands on the operand's index `i` exactly when, on every axis, its start plus its window
    coordinate is `i`'s coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    split at h
    · rename_i hb
      have hv : (d.start j idx a + (d.window j a : Int)).toNat = (i a).val :=
        congrArg Fin.val (congrFun (Option.some.inj h) a)
      have := hb a
      omega
    · exact absurd h (by simp)
  · intro h
    have hb : ∀ a, 0 ≤ d.start j idx a + (d.window j a : Int) ∧ d.start j idx a + (d.window j a : Int) < s.size a :=
      fun a => by have := h a; have := (i a).isLt; omega
    rw [dif_pos hb]
    refine congrArg some (funext fun a => Fin.ext ?_)
    show (d.start j idx a + (d.window j a : Int)).toNat = (i a).val
    have := h a
    omega

/-- THE OVERWRITING SCATTER READ AT `i`: when `j₀` is the one update entry that lands on `i`, the result at `i` is the
    update at `j₀`. -/
theorem scatter_set_apply (d : ScatterDims s si u) (x : s.Idx → α) (idx : IVec si w) (upd : u.Idx → α) (i : s.Idx)
    (j₀ : u.Idx) (h₀ : ∀ a, d.start j₀ idx a + (d.window j₀ a : Int) = ((i a).val : Int))
    (hu : ∀ j : u.Idx, (∀ a, d.start j idx a + (d.window j a : Int) = ((i a).val : Int)) → j = j₀) :
    Host.scatter d (fun _ b => b) x idx upd i = upd j₀ := by
  unfold Host.scatter
  refine (foldl_apply_of_unique (β := s.Idx) (γ := α)
    (g := fun n => d.resultIdx? (u.rowMajor.symm n) idx) (v := fun n => upd (u.rowMajor.symm n))
    (fun r n i' => ?_) (List.finRange u.numel) x i (u.rowMajor j₀) (List.mem_finRange _) ?_ (fun n _ hn => ?_)).trans ?_
  · dsimp only
    cases d.resultIdx? (u.rowMajor.symm n) idx with
    | none => exact (if_neg (by simp)).symm
    | some k =>
      show (if i' = k then upd (u.rowMajor.symm n) else r i') = _
      by_cases hik : i' = k
      · rw [if_pos hik, if_pos (by rw [hik])]
      · rw [if_neg hik, if_neg (fun h => hik (Option.some.inj h).symm)]
  · show d.resultIdx? (u.rowMajor.symm (u.rowMajor j₀)) idx = some i
    rw [Equiv.symm_apply_apply]
    exact (resultIdx?_eq_some_iff d j₀ idx i).mpr h₀
  · have := hu _ ((resultIdx?_eq_some_iff d _ idx i).mp hn)
    rw [← this, Equiv.apply_symm_apply]
  · show upd (u.rowMajor.symm (u.rowMajor j₀)) = upd j₀
    rw [Equiv.symm_apply_apply]

end Scatter

end Cert.ScatterSet
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibSumBlocks.lean ====
/-
  A sum over an index range made of consecutive blocks, and rank-3 re-layouts read at coordinates.

  In any commutative additive monoid (the extended reals included; nothing here needs finiteness) a sum over
  `n₁ + n₂ + n₃ + n₄` consecutive indices is the sum of the four blocks' sums: this is what splits a contraction over a
  concatenated feature axis into one contraction per concatenated piece. The second half reads, at an index given by
  its coordinates, the rank-3 broadcasts along one or two unit axes and the casts that insert those unit axes.
-/
import Mathlib.Algebra.BigOperators.Fin
import Idealize.ShloMosaic.Lib.ValueIdx
import Idealize.ShloMosaic.Lib.ValueLayout
import Idealize.ShloMosaic.Lib.Pipeline.Value

open scoped BigOperators

namespace Cert.SumBlocks

/-- A sum over `N = n₁ + n₂ + n₃ + n₄` indices, block by block: the first `n₁` indices, the next `n₂`, the next
    `n₃`, the last `n₄`. -/
theorem sum_four_blocks {M : Type*} [AddCommMonoid M] {n₁ n₂ n₃ n₄ N : ℕ} (hN : N = n₁ + n₂ + n₃ + n₄) (g : Fin N → M) :
    ∑ f, g f
      = ((∑ k : Fin n₁, g ⟨k.val, by have := k.isLt; omega⟩) + (∑ k : Fin n₂, g ⟨n₁ + k.val, by have := k.isLt; omega⟩))
        + ((∑ k : Fin n₃, g ⟨n₁ + n₂ + k.val, by have := k.isLt; omega⟩)
          + (∑ k : Fin n₄, g ⟨n₁ + n₂ + n₃ + k.val, by have := k.isLt; omega⟩)) := by
  subst hN
  rw [Fin.sum_univ_add, Fin.sum_univ_add, Fin.sum_univ_add, add_assoc]
  rfl

end Cert.SumBlocks

namespace Cert.RankThree

open Idealize.ShloMosaic Idealize.ShloMosaic.ValueIdx

variable {α : Type}

/-- `[a, 1, c]` broadcast to `[a, b, c]`: every position on the second axis reads the one there is. -/
theorem bcastMid_apply {a b c : ℕ} (x : (⟨3, ![a, 1, c]⟩ : Shape).Idx → α) (h : (⟨3, ![a, 1, c]⟩ : Shape).Broadcasts ⟨3, ![a, b, c]⟩)
    (p : Fin a) (q : Fin b) (k : Fin c) : broadcastTo ⟨3, ![a, b, c]⟩ x h (ix3 p q k) = x (ix3 p (0 : Fin 1) k) :=
  broadcastTo_apply x h _ _ fun ax => by
    match ax with
    | ⟨0, _⟩ => show p.val = if a = 1 then 0 else p.val; split <;> [(have := p.isLt; omega); rfl]
    | ⟨1, _⟩ => show (0 : ℕ) = if (1 : ℕ) = 1 then 0 else q.val; rw [if_pos rfl]
    | ⟨2, _⟩ => show k.val = if c = 1 then 0 else k.val; split <;> [(have := k.isLt; omega); rfl]

/-- `[1, b, c]` broadcast to `[a, b, c]`: every position on the first axis reads the one there is. -/
theorem bcastLead_apply {a b c : ℕ} (x : (⟨3, ![1, b, c]⟩ : Shape).Idx → α) (h : (⟨3, ![1, b, c]⟩ : Shape).Broadcasts ⟨3, ![a, b, c]⟩)
    (p : Fin a) (q : Fin b) (k : Fin c) : broadcastTo ⟨3, ![a, b, c]⟩ x h (ix3 p q k) = x (ix3 (0 : Fin 1) q k) :=
  broadcastTo_apply x h _ _ fun ax => by
    match ax with
    | ⟨0, _⟩ => show (0 : ℕ) = if (1 : ℕ) = 1 then 0 else p.val; rw [if_pos rfl]
    | ⟨1, _⟩ => show q.val = if b = 1 then 0 else q.val; split <;> [(have := q.isLt; omega); rfl]
    | ⟨2, _⟩ => show k.val = if c = 1 then 0 else k.val; split <;> [(have := k.isLt; omega); rfl]

/-- `[1, 1, c]` broadcast to `[a, b, c]`: one row for every `(p, q)`. -/
theorem bcastRow_apply {a b c : ℕ} (x : (⟨3, ![1, 1, c]⟩ : Shape).Idx → α) (h : (⟨3, ![1, 1, c]⟩ : Shape).Broadcasts ⟨3, ![a, b, c]⟩)
    (p : Fin a) (q : Fin b) (k : Fin c) : broadcastTo ⟨3, ![a, b, c]⟩ x h (ix3 p q k) = x (ix3 (0 : Fin 1) (0 : Fin 1) k) :=
  broadcastTo_apply x h _ _ fun ax => by
    match ax with
    | ⟨0, _⟩ => show (0 : ℕ) = if (1 : ℕ) = 1 then 0 else p.val; rw [if_pos rfl]
    | ⟨1, _⟩ => show (0 : ℕ) = if (1 : ℕ) = 1 then 0 else q.val; rw [if_pos rfl]
    | ⟨2, _⟩ => show k.val = if c = 1 then 0 else k.val; split <;> [(have := k.isLt; omega); rfl]

/-- `[a, c]` viewed `[a, 1, c]`. -/
theorem unitMid_apply {a c : ℕ} (x : (⟨2, ![a, c]⟩ : Shape).Idx → α) (h : (⟨2, ![a, c]⟩ : Shape).ShapeCasts ⟨3, ![a, 1, c]⟩)
    (p : Fin a) (u : Fin 1) (k : Fin c) : shapeCast ⟨3, ![a, 1, c]⟩ x h (ix3 p u k) = x (ix2 p k) :=
  shapeCast_apply x h _ _ (by
    have hu : u.val = 0 := by omega
    rw [Shape.rowMajor_val_three, Shape.rowMajor_val_two]
    show p.val * c + k.val = (p.val * 1 + u.val) * c + k.val
    rw [hu, Nat.mul_one, Nat.add_zero])

/-- `[c]` viewed `[1, 1, c]`. -/
theorem vecToUnits_apply {c : ℕ} (x : (⟨1, ![c]⟩ : Shape).Idx → α) (h : (⟨1, ![c]⟩ : Shape).ShapeCasts ⟨3, ![1, 1, c]⟩)
    (u₁ u₂ : Fin 1) (k : Fin c) : shapeCast ⟨3, ![1, 1, c]⟩ x h (ix3 u₁ u₂ k) = x (ix1 k) :=
  shapeCast_apply x h _ _ (by
    have h1 : u₁.val = 0 := by omega
    have h2 : u₂.val = 0 := by omega
    rw [Shape.rowMajor_val_three, Shape.rowMajor_val_one]
    show k.val = (u₁.val * 1 + u₂.val) * c + k.val
    rw [h1, h2]; simp)

/-- The transpose that swaps the two leading axes of an `[a, b, c]` array. -/
theorem swapLead_apply {a b c : ℕ} (x : (⟨3, ![a, b, c]⟩ : Shape).Idx → α)
    (h : (⟨3, ![a, b, c]⟩ : Shape).Transposes [1, 0, 2] ⟨3, ![b, a, c]⟩) (q : Fin b) (p : Fin a) (k : Fin c) :
    transpose ⟨3, ![b, a, c]⟩ [1, 0, 2] x h (ix3 q p k) = x (ix3 p q k) :=
  transpose_apply _ x h _ _ fun ax => match ax with | ⟨0, _⟩ => rfl | ⟨1, _⟩ => rfl | ⟨2, _⟩ => rfl

end Cert.RankThree
-- ==== Proof.EdgeSpec.lean ====
/-
  The edge network as one function of its arrays, over the extended reals.

  For every graph `b` and ordered pair of its nodes `(i, j)` the input row is the four pieces
  `x[b, i] ‖ x[b, j] ‖ z[b] ‖ agg[b]` laid end to end (1472 = 320 + 320 + 512 + 320 entries). Three dense layers follow,
  the first two rectified; the last has 11 outputs. The result for the pair is the mean of the logits of `(i, j)` and
  of `(j, i)`: `½ · (L[b, i, j] + L[b, j, i])`, and the pairs are listed row-major, `((b · 32 + i) · 32 + j, a)`.

  The first layer is affine in the four pieces: a contraction over the joined row is the sum of the four pieces'
  contractions against the matching blocks of rows of the weight matrix. Only the associativity and commutativity of
  addition are used, so the identity holds for every extended real, infinities included.
-/
import proofs.«168549_j88691074662617_2_alg».proof.Proof.LibRowLayers
import proofs.«168549_j88691074662617_2_alg».proof.Proof.LibSumBlocks

open scoped BigOperators

noncomputable section

namespace Cert.EdgeMlp

open Idealize.ShloMosaic Idealize.ShloMosaic.ValueIdx Cert.RowLayers

/-- The rectifier's threshold: the extended real the f32 pattern of `0.0` denotes. -/
abbrev zeroE : EReal := Ideal.ofBits .f32 0x00000000#32
/-- The symmetrisation's factor: the extended real the f32 pattern of `0.5` denotes. -/
abbrev halfE : EReal := Ideal.ofBits .f32 0x3F000000#32

/-! ## The joined row and the first layer -/

/-- Four rows laid end to end. -/
def join4 (xi xj : Fin 320 → EReal) (zr : Fin 512 → EReal) (ar : Fin 320 → EReal) : Fin 1472 → EReal := fun f =>
  if h1 : f.val < 320 then xi ⟨f.val, h1⟩
  else if h2 : f.val < 640 then xj ⟨f.val - 320, by omega⟩
  else if h3 : f.val < 1152 then zr ⟨f.val - 640, by omega⟩
  else ar ⟨f.val - 1152, by have := f.isLt; omega⟩

/-- The first layer computed piece by piece: each piece against its own block of weight rows, the two node pieces
    added first, the two graph pieces and the bias added first, then the two halves. -/
def preFour (xi xj : Fin 320 → EReal) (zr : Fin 512 → EReal) (ar : Fin 320 → EReal)
    (Wa Wb : (⟨2, ![320, 2944]⟩ : Shape).Idx → EReal) (Wc : (⟨2, ![512, 2944]⟩ : Shape).Idx → EReal)
    (Wd : (⟨2, ![320, 2944]⟩ : Shape).Idx → EReal) (bias : Fin 2944 → EReal) : Fin 2944 → EReal := fun h =>
  ((∑ k : Fin 320, xi k * Wa (ix2 k h)) + (∑ k : Fin 320, xj k * Wb (ix2 k h)))
    + (((∑ k : Fin 512, zr k * Wc (ix2 k h)) + (∑ k : Fin 320, ar k * Wd (ix2 k h))) + bias h)

/-- The piecewise first layer IS the dense layer on the joined row, when the four weight blocks are the matching
    blocks of rows of the whole weight matrix. -/
theorem preFour_eq_dense (xi xj : Fin 320 → EReal) (zr : Fin 512 → EReal) (ar : Fin 320 → EReal)
    (Wa Wb : (⟨2, ![320, 2944]⟩ : Shape).Idx → EReal) (Wc : (⟨2, ![512, 2944]⟩ : Shape).Idx → EReal)
    (Wd : (⟨2, ![320, 2944]⟩ : Shape).Idx → EReal) (W : (⟨2, ![1472, 2944]⟩ : Shape).Idx → EReal) (bias : Fin 2944 → EReal)
    (ha : ∀ (k : Fin 320) (h : Fin 2944), Wa (ix2 k h) = W (ix2 ⟨k.val, by have := k.isLt; omega⟩ h))
    (hb : ∀ (k : Fin 320) (h : Fin 2944), Wb (ix2 k h) = W (ix2 ⟨320 + k.val, by have := k.isLt; omega⟩ h))
    (hc : ∀ (k : Fin 512) (h : Fin 2944), Wc (ix2 k h) = W (ix2 ⟨320 + 320 + k.val, by have := k.isLt; omega⟩ h))
    (hd : ∀ (k : Fin 320) (h : Fin 2944), Wd (ix2 k h) = W (ix2 ⟨320 + 320 + 512 + k.val, by have := k.isLt; omega⟩ h)) :
    preFour xi xj zr ar Wa Wb Wc Wd bias = dense (join4 xi xj zr ar) W bias := by
  funext h
  unfold preFour dense
  rw [Cert.SumBlocks.sum_four_blocks (M := EReal) (n₁ := 320) (n₂ := 320) (n₃ := 512) (n₄ := 320) (N := 1472) rfl
    (fun f => join4 xi xj zr ar f * W (ix2 f h))]
  refine Eq.trans ?_ (add_assoc _ _ _).symm
  refine congrArg₂ (· + ·) (congrArg₂ (· + ·) ?_ ?_) (congrArg (· + bias h) (congrArg₂ (· + ·) ?_ ?_))
  · refine Finset.sum_congr rfl fun k _ => ?_
    rw [ha]
    refine congrArg (· * _) ?_
    unfold join4
    rw [dif_pos (show k.val < 320 from k.isLt)]
  · refine Finset.sum_congr rfl fun k _ => ?_
    rw [hb]
    refine congrArg (· * _) ?_
    unfold join4
    rw [dif_neg (show ¬(320 + k.val < 320) by omega), dif_pos (show 320 + k.val < 640 by have := k.isLt; omega)]
    exact congrArg xj (Fin.ext (by show k.val = 320 + k.val - 320; omega))
  · refine Finset.sum_congr rfl fun k _ => ?_
    rw [hc]
    refine congrArg (· * _) ?_
    unfold join4
    rw [dif_neg (show ¬(320 + 320 + k.val < 320) by omega), dif_neg (show ¬(320 + 320 + k.val < 640) by omega),
      dif_pos (show 320 + 320 + k.val < 1152 by have := k.isLt; omega)]
    exact congrArg zr (Fin.ext (by show k.val = 320 + 320 + k.val - 640; omega))
  · refine Finset.sum_congr rfl fun k _ => ?_
    rw [hd]
    refine congrArg (· * _) ?_
    unfold join4
    rw [dif_neg (show ¬(320 + 320 + 512 + k.val < 320) by omega), dif_neg (show ¬(320 + 320 + 512 + k.val < 640) by omega),
      dif_neg (show ¬(320 + 320 + 512 + k.val < 1152) by omega)]
    exact congrArg ar (Fin.ext (by show k.val = 320 + 320 + 512 + k.val - 1152; omega))

/-! ## The two later layers, and the padded last layer -/

/-- From the rectified first layer's row to the logits row: a rectified dense layer, then a dense layer. -/
def headOf (W2 : (⟨2, ![2944, 1472]⟩ : Shape).Idx → EReal) (b2 : Fin 1472 → EReal)
    {A : ℕ} (W3 : (⟨2, ![1472, A]⟩ : Shape).Idx → EReal) (b3 : Fin A → EReal) (hid : Fin 2944 → EReal) : Fin A → EReal :=
  dense (relu zeroE (dense hid W2 b2)) W3 b3

/-- A last layer whose weights and bias are padded with further columns has the same logits in the columns kept. -/
theorem headOf_padded (W2 : (⟨2, ![2944, 1472]⟩ : Shape).Idx → EReal) (b2 : Fin 1472 → EReal) {A B : ℕ}
    (W3 : (⟨2, ![1472, A]⟩ : Shape).Idx → EReal) (b3 : Fin A → EReal)
    (W3p : (⟨2, ![1472, B]⟩ : Shape).Idx → EReal) (b3p : Fin B → EReal) (hid : Fin 2944 → EReal) (a : Fin A) (a' : Fin B)
    (hW : ∀ f : Fin 1472, W3p (ix2 f a') = W3 (ix2 f a)) (hb : b3p a' = b3 a) :
    headOf W2 b2 W3p b3p hid a' = headOf W2 b2 W3 b3 hid a := by
  unfold headOf dense
  rw [hb]
  exact congrArg (· + b3 a) (Finset.sum_congr rfl fun f _ => by rw [hW f])

/-- From the first layer's row (before its rectifier) to the logits row. -/
def logitsOf (W2 : (⟨2, ![2944, 1472]⟩ : Shape).Idx → EReal) (b2 : Fin 1472 → EReal)
    {A : ℕ} (W3 : (⟨2, ![1472, A]⟩ : Shape).Idx → EReal) (b3 : Fin A → EReal) (pre : Fin 2944 → EReal) : Fin A → EReal :=
  headOf W2 b2 W3 b3 (relu zeroE pre)

/-! ## The whole function -/

section Whole
variable (X : (⟨3, ![64, 32, 320]⟩ : Shape).Idx → EReal) (Z : (⟨2, ![64, 512]⟩ : Shape).Idx → EReal)
  (Ag : (⟨2, ![64, 320]⟩ : Shape).Idx → EReal) (W1 : (⟨2, ![1472, 2944]⟩ : Shape).Idx → EReal)
  (b1 : (⟨1, ![2944]⟩ : Shape).Idx → EReal) (W2 : (⟨2, ![2944, 1472]⟩ : Shape).Idx → EReal)
  (b2 : (⟨1, ![1472]⟩ : Shape).Idx → EReal) (W3 : (⟨2, ![1472, 11]⟩ : Shape).Idx → EReal) (b3 : (⟨1, ![11]⟩ : Shape).Idx → EReal)

/-- The input row of the pair `(i, j)` of graph `b`. -/
def edgeRow (b : Fin 64) (i j : Fin 32) : Fin 1472 → EReal :=
  join4 (fun k => X (ix3 b i k)) (fun k => X (ix3 b j k)) (fun k => Z (ix2 b k)) (fun k => Ag (ix2 b k))

/-- The logits of the pair `(i, j)` of graph `b`. -/
def edgeLogits (b : Fin 64) (i j : Fin 32) : Fin 11 → EReal :=
  logitsOf W2 (fun f => b2 (ix1 f)) W3 (fun a => b3 (ix1 a)) (dense (edgeRow X Z Ag b i j) W1 (fun h => b1 (ix1 h)))

/-- The symmetrised logits of the pair. -/
def edgeOut (b : Fin 64) (i j : Fin 32) (a : Fin 11) : EReal :=
  halfE * (edgeLogits X Z Ag W1 b1 W2 b2 W3 b3 b i j a + edgeLogits X Z Ag W1 b1 W2 b2 W3 b3 b j i a)

/-- THE RESULT ARRAY: row `(b · 32 + i) · 32 + j` holds the symmetrised logits of the pair `(i, j)` of graph `b`. -/
def G : (⟨2, ![65536, 11]⟩ : Shape).Idx → EReal := fun e =>
  edgeOut X Z Ag W1 b1 W2 b2 W3 b3 ⟨(e 0).val / 1024, by have := idx2_lt0 e; omega⟩
    ⟨(e 0).val / 32 % 32, Nat.mod_lt _ (by decide)⟩ ⟨(e 0).val % 32, Nat.mod_lt _ (by decide)⟩ (e 1)

/-- The result array read at the row of a pair given by its coordinates. -/
theorem G_apply (b : Fin 64) (i j : Fin 32) (a : Fin 11) (r : Fin 65536) (hr : r.val = (b.val * 32 + i.val) * 32 + j.val) :
    G X Z Ag W1 b1 W2 b2 W3 b3 (ix2 r a) = edgeOut X Z Ag W1 b1 W2 b2 W3 b3 b i j a := by
  unfold G
  have hb : (⟨r.val / 1024, by have := r.isLt; omega⟩ : Fin 64) = b := Fin.ext (by
    show r.val / 1024 = b.val; have := i.isLt; have := j.isLt; omega)
  have hi : (⟨r.val / 32 % 32, Nat.mod_lt _ (by decide)⟩ : Fin 32) = i := Fin.ext (by
    show r.val / 32 % 32 = i.val; have := i.isLt; have := j.isLt; omega)
  have hj : (⟨r.val % 32, Nat.mod_lt _ (by decide)⟩ : Fin 32) = j := Fin.ext (by
    show r.val % 32 = j.val; have := j.isLt; omega)
  show edgeOut X Z Ag W1 b1 W2 b2 W3 b3 ⟨r.val / 1024, _⟩ ⟨r.val / 32 % 32, _⟩ ⟨r.val % 32, _⟩ a = _
  rw [hb, hi, hj]

end Whole

end Cert.EdgeMlp

end
-- ==== Proof.LibRelayout.lean ====
/-
  Re-layouts of an array read at an index given by its coordinates.

  A row-major reshape keeps the position of every entry in the flat order. So a reshape that MERGES leading axes
  ([a, b, c] to [a·b, c]) reads, at row `p·b + q`, the entry `(p, q, ·)`; one that SPLITS them back reads the same the other
  way; one that INSERTS a unit axis forgets the unit coordinate. A broadcast along an axis of extent one reads the one
  entry there is on that axis. Each statement below names both indices by coordinates, for any extents, so that a chain of
  such operations is walked by `rw`, outermost operation first.
-/
import Idealize.ShloMosaic.Lib.ValueIdx
import Idealize.ShloMosaic.Lib.ValueLayout
import Idealize.ShloMosaic.Lib.Pipeline.Value

namespace Cert.Relayout

open Idealize.ShloMosaic Idealize.ShloMosaic.ValueIdx

variable {α : Type}

/-! ## Merging and splitting leading axes -/

/-- `[a, b, c]` merged to `[M, c]`: row `p·b + q` is `(p, q, ·)`. -/
theorem merge_ab_apply {a b c M : ℕ} (x : (⟨3, ![a, b, c]⟩ : Shape).Idx → α) (h : (⟨3, ![a, b, c]⟩ : Shape).ShapeCasts ⟨2, ![M, c]⟩)
    (p : Fin a) (q : Fin b) (k : Fin c) (r : Fin M) (hr : r.val = p.val * b + q.val) :
    shapeCast ⟨2, ![M, c]⟩ x h (ix2 r k) = x (ix3 p q k) :=
  shapeCast_apply x h _ _ (by
    rw [Shape.rowMajor_val_three, Shape.rowMajor_val_two]
    show (p.val * b + q.val) * c + k.val = r.val * c + k.val
    rw [hr])

/-- `[M, c]` split to `[a, b, c]`: `(p, q, ·)` is row `p·b + q`. -/
theorem split_ab_apply {a b c M : ℕ} (x : (⟨2, ![M, c]⟩ : Shape).Idx → α) (h : (⟨2, ![M, c]⟩ : Shape).ShapeCasts ⟨3, ![a, b, c]⟩)
    (p : Fin a) (q : Fin b) (k : Fin c) (r : Fin M) (hr : r.val = p.val * b + q.val) :
    shapeCast ⟨3, ![a, b, c]⟩ x h (ix3 p q k) = x (ix2 r k) :=
  shapeCast_apply x h _ _ (by
    rw [Shape.rowMajor_val_three, Shape.rowMajor_val_two]
    show r.val * c + k.val = (p.val * b + q.val) * c + k.val
    rw [hr])

/-- `[a, b, c, d]` merged to `[M, d]`: row `(p·b + q)·c + s` is `(p, q, s, ·)`. -/
theorem merge_abc_apply {a b c d M : ℕ} (x : (⟨4, ![a, b, c, d]⟩ : Shape).Idx → α) (h : (⟨4, ![a, b, c, d]⟩ : Shape).ShapeCasts ⟨2, ![M, d]⟩)
    (p : Fin a) (q : Fin b) (s : Fin c) (k : Fin d) (r : Fin M) (hr : r.val = (p.val * b + q.val) * c + s.val) :
    shapeCast ⟨2, ![M, d]⟩ x h (ix2 r k) = x (ix4 p q s k) :=
  shapeCast_apply x h _ _ (by
    rw [Shape.rowMajor_val_four, Shape.rowMajor_val_two]
    show ((p.val * b + q.val) * c + s.val) * d + k.val = r.val * d + k.val
    rw [hr])

/-- `[M, d]` split to `[a, b, c, d]`: `(p, q, s, ·)` is row `(p·b + q)·c + s`. -/
theorem split_abc_apply {a b c d M : ℕ} (x : (⟨2, ![M, d]⟩ : Shape).Idx → α) (h : (⟨2, ![M, d]⟩ : Shape).ShapeCasts ⟨4, ![a, b, c, d]⟩)
    (p : Fin a) (q : Fin b) (s : Fin c) (k : Fin d) (r : Fin M) (hr : r.val = (p.val * b + q.val) * c + s.val) :
    shapeCast ⟨4, ![a, b, c, d]⟩ x h (ix4 p q s k) = x (ix2 r k) :=
  shapeCast_apply x h _ _ (by
    rw [Shape.rowMajor_val_four, Shape.rowMajor_val_two]
    show r.val * d + k.val = ((p.val * b + q.val) * c + s.val) * d + k.val
    rw [hr])

/-- `[a, b, c, d]` with its two leading axes merged, `[N, c, d]`: leading coordinate `p·b + q` is `(p, q, ·, ·)`. -/
theorem mergeLead_apply {a b c d N : ℕ} (x : (⟨4, ![a, b, c, d]⟩ : Shape).Idx → α) (h : (⟨4, ![a, b, c, d]⟩ : Shape).ShapeCasts ⟨3, ![N, c, d]⟩)
    (p : Fin a) (q : Fin b) (s : Fin c) (k : Fin d) (n : Fin N) (hn : n.val = p.val * b + q.val) :
    shapeCast ⟨3, ![N, c, d]⟩ x h (ix3 n s k) = x (ix4 p q s k) :=
  shapeCast_apply x h _ _ (by
    rw [Shape.rowMajor_val_four, Shape.rowMajor_val_three]
    show ((p.val * b + q.val) * c + s.val) * d + k.val = (n.val * c + s.val) * d + k.val
    rw [hn])

/-! ## A unit axis inserted in the middle -/

/-- `[a, b, c]` viewed `[a, 1, b, c]`. -/
theorem unitSecond_apply {a b c : ℕ} (x : (⟨3, ![a, b, c]⟩ : Shape).Idx → α) (h : (⟨3, ![a, b, c]⟩ : Shape).ShapeCasts ⟨4, ![a, 1, b, c]⟩)
    (p : Fin a) (u : Fin 1) (q : Fin b) (k : Fin c) :
    shapeCast ⟨4, ![a, 1, b, c]⟩ x h (ix4 p u q k) = x (ix3 p q k) :=
  shapeCast_apply x h _ _ (by
    have hu : u.val = 0 := by omega
    rw [Shape.rowMajor_val_four, Shape.rowMajor_val_three]
    show (p.val * b + q.val) * c + k.val = ((p.val * 1 + u.val) * b + q.val) * c + k.val
    rw [hu, Nat.mul_one, Nat.add_zero])

/-- `[a, b, c]` viewed `[a, b, 1, c]`. -/
theorem unitThird_apply {a b c : ℕ} (x : (⟨3, ![a, b, c]⟩ : Shape).Idx → α) (h : (⟨3, ![a, b, c]⟩ : Shape).ShapeCasts ⟨4, ![a, b, 1, c]⟩)
    (p : Fin a) (q : Fin b) (u : Fin 1) (k : Fin c) :
    shapeCast ⟨4, ![a, b, 1, c]⟩ x h (ix4 p q u k) = x (ix3 p q k) :=
  shapeCast_apply x h _ _ (by
    have hu : u.val = 0 := by omega
    rw [Shape.rowMajor_val_four, Shape.rowMajor_val_three]
    show (p.val * b + q.val) * c + k.val = ((p.val * b + q.val) * 1 + u.val) * c + k.val
    rw [hu, Nat.mul_one, Nat.add_zero])

/-- A row `[1, c]` viewed `[1, 1, 1, c]`. -/
theorem rowToUnits_apply {c : ℕ} (x : (⟨2, ![1, c]⟩ : Shape).Idx → α) (h : (⟨2, ![1, c]⟩ : Shape).ShapeCasts ⟨4, ![1, 1, 1, c]⟩)
    (u1 u2 u3 : Fin 1) (k : Fin c) :
    shapeCast ⟨4, ![1, 1, 1, c]⟩ x h (ix4 u1 u2 u3 k) = x (ix2 (0 : Fin 1) k) :=
  shapeCast_apply x h _ _ (by
    have h1 : u1.val = 0 := by omega
    have h2 : u2.val = 0 := by omega
    have h3 : u3.val = 0 := by omega
    rw [Shape.rowMajor_val_four, Shape.rowMajor_val_two]
    show 0 * c + k.val = ((u1.val * 1 + u2.val) * 1 + u3.val) * c + k.val
    rw [h1, h2, h3])

/-! ## Broadcasts along one axis of a rank-4 array -/

/-- `[a, 1, c, d]` broadcast to `[a, b, c, d]`. -/
theorem bcastSecond_apply {a b c d : ℕ} (x : (⟨4, ![a, 1, c, d]⟩ : Shape).Idx → α) (h : (⟨4, ![a, 1, c, d]⟩ : Shape).Broadcasts ⟨4, ![a, b, c, d]⟩)
    (p : Fin a) (q : Fin b) (s : Fin c) (k : Fin d) :
    broadcastTo ⟨4, ![a, b, c, d]⟩ x h (ix4 p q s k) = x (ix4 p (0 : Fin 1) s k) :=
  broadcastTo_apply x h _ _ fun ax => by
    match ax with
    | ⟨0, _⟩ => show p.val = if a = 1 then 0 else p.val; split <;> [(have := p.isLt; omega); rfl]
    | ⟨1, _⟩ => show (0 : ℕ) = if (1 : ℕ) = 1 then 0 else q.val; rw [if_pos rfl]
    | ⟨2, _⟩ => show s.val = if c = 1 then 0 else s.val; split <;> [(have := s.isLt; omega); rfl]
    | ⟨3, _⟩ => show k.val = if d = 1 then 0 else k.val; split <;> [(have := k.isLt; omega); rfl]

/-- `[a, b, 1, d]` broadcast to `[a, b, c, d]`. -/
theorem bcastThird_apply {a b c d : ℕ} (x : (⟨4, ![a, b, 1, d]⟩ : Shape).Idx → α) (h : (⟨4, ![a, b, 1, d]⟩ : Shape).Broadcasts ⟨4, ![a, b, c, d]⟩)
    (p : Fin a) (q : Fin b) (s : Fin c) (k : Fin d) :
    broadcastTo ⟨4, ![a, b, c, d]⟩ x h (ix4 p q s k) = x (ix4 p q (0 : Fin 1) k) :=
  broadcastTo_apply x h _ _ fun ax => by
    match ax with
    | ⟨0, _⟩ => show p.val = if a = 1 then 0 else p.val; split <;> [(have := p.isLt; omega); rfl]
    | ⟨1, _⟩ => show q.val = if b = 1 then 0 else q.val; split <;> [(have := q.isLt; omega); rfl]
    | ⟨2, _⟩ => show (0 : ℕ) = if (1 : ℕ) = 1 then 0 else s.val; rw [if_pos rfl]
    | ⟨3, _⟩ => show k.val = if d = 1 then 0 else k.val; split <;> [(have := k.isLt; omega); rfl]

/-- `[1, 1, 1, d]` broadcast to `[a, b, c, d]`: one row for every `(p, q, s)`. -/
theorem bcastRow_apply {a b c d : ℕ} (x : (⟨4, ![1, 1, 1, d]⟩ : Shape).Idx → α) (h : (⟨4, ![1, 1, 1, d]⟩ : Shape).Broadcasts ⟨4, ![a, b, c, d]⟩)
    (p : Fin a) (q : Fin b) (s : Fin c) (k : Fin d) :
    broadcastTo ⟨4, ![a, b, c, d]⟩ x h (ix4 p q s k) = x (ix4 (0 : Fin 1) (0 : Fin 1) (0 : Fin 1) k) :=
  broadcastTo_apply x h _ _ fun ax => by
    match ax with
    | ⟨0, _⟩ => show (0 : ℕ) = if (1 : ℕ) = 1 then 0 else p.val; rw [if_pos rfl]
    | ⟨1, _⟩ => show (0 : ℕ) = if (1 : ℕ) = 1 then 0 else q.val; rw [if_pos rfl]
    | ⟨2, _⟩ => show (0 : ℕ) = if (1 : ℕ) = 1 then 0 else s.val; rw [if_pos rfl]
    | ⟨3, _⟩ => show k.val = if d = 1 then 0 else k.val; split <;> [(have := k.isLt; omega); rfl]

end Cert.Relayout
-- ==== Proof.KernelBody.lean ====
/-
  The kernel body's stored value, read at an entry.

  One grid point handles one graph. From the graph's block of node rows `x` ([32, 320]), its latent row `z` and its
  aggregate row `agg`, the body forms the first layer's value for every ordered pair of nodes `(i, j)` as
  `(x[i]·Wa + x[j]·Wb) + ((z·Wc + agg·Wd) + b₁)` — the rank decomposition of a dense layer on the joined row —, rectifies
  it, lists the pairs row-major (row `i·32 + j`), applies two more dense layers on every row, and averages the logits of
  row `i·32 + j` with those of row `j·32 + i`. Every matrix product is into a zero accumulator and every change of
  float format is the identity on extended reals.
-/
import proofs.«168549_j88691074662617_2_alg».proof.Proof.Gen.KernelIdeal.Skeleton
import proofs.«168549_j88691074662617_2_alg».proof.Proof.EdgeSpec
import proofs.«168549_j88691074662617_2_alg».proof.Proof.LibRelayout

open scoped BigOperators

noncomputable section

namespace Cert.KernelIdeal.Body

open Cert.KernelIdeal Cert.KernelIdeal.Gen Idealize.ShloMosaic Idealize.ShloMosaic.ValueIdx
open Cert.RowLayers Cert.EdgeMlp Cert.RankThree Cert.Relayout

/-! ## The five products' dimension numbers say "rows times columns" -/

theorem rtc_node : RowsTimesCols dot_S32x320_S320x2944_S32x2944_1_0_0_1_n_n :=
  ⟨rfl, rfl,
    fun j q => by
      unfold DotDims.lhsIdx
      rw [dif_neg (show ¬(0 : Fin S32x320.rank) ∈ dot_S32x320_S320x2944_S32x2944_1_0_0_1_n_n.lhsBatch by decide),
        dif_pos (show (0 : Fin S32x320.rank) ∈ dot_S32x320_S320x2944_S32x2944_1_0_0_1_n_n.lhsNonContracting by decide)]
      rfl,
    fun j q => dot_S32x320_S320x2944_S32x2944_1_0_0_1_n_n.lhsIdx_val_of_single rfl j q,
    fun j q => dot_S32x320_S320x2944_S32x2944_1_0_0_1_n_n.rhsIdx_val_of_single rfl j q,
    fun j q => by
      unfold DotDims.rhsIdx
      rw [dif_neg (show ¬(1 : Fin S320x2944.rank) ∈ dot_S32x320_S320x2944_S32x2944_1_0_0_1_n_n.rhsBatch by decide),
        dif_pos (show (1 : Fin S320x2944.rank) ∈ dot_S32x320_S320x2944_S32x2944_1_0_0_1_n_n.rhsNonContracting by decide)]
      rfl⟩

theorem rtc_latent : RowsTimesCols dot_S1x512_S512x2944_S1x2944_1_0_0_1_n_n :=
  ⟨rfl, rfl,
    fun j q => by
      unfold DotDims.lhsIdx
      rw [dif_neg (show ¬(0 : Fin S1x512.rank) ∈ dot_S1x512_S512x2944_S1x2944_1_0_0_1_n_n.lhsBatch by decide),
        dif_pos (show (0 : Fin S1x512.rank) ∈ dot_S1x512_S512x2944_S1x2944_1_0_0_1_n_n.lhsNonContracting by decide)]
      rfl,
    fun j q => dot_S1x512_S512x2944_S1x2944_1_0_0_1_n_n.lhsIdx_val_of_single rfl j q,
    fun j q => dot_S1x512_S512x2944_S1x2944_1_0_0_1_n_n.rhsIdx_val_of_single rfl j q,
    fun j q => by
      unfold DotDims.rhsIdx
      rw [dif_neg (show ¬(1 : Fin S512x2944.rank) ∈ dot_S1x512_S512x2944_S1x2944_1_0_0_1_n_n.rhsBatch by decide),
        dif_pos (show (1 : Fin S512x2944.rank) ∈ dot_S1x512_S512x2944_S1x2944_1_0_0_1_n_n.rhsNonContracting by decide)]
      rfl⟩

theorem rtc_agg : RowsTimesCols dot_S1x320_S320x2944_S1x2944_1_0_0_1_n_n :=
  ⟨rfl, rfl,
    fun j q => by
      unfold DotDims.lhsIdx
      rw [dif_neg (show ¬(0 : Fin S1x320.rank) ∈ dot_S1x320_S320x2944_S1x2944_1_0_0_1_n_n.lhsBatch by decide),
        dif_pos (show (0 : Fin S1x320.rank) ∈ dot_S1x320_S320x2944_S1x2944_1_0_0_1_n_n.lhsNonContracting by decide)]
      rfl,
    fun j q => dot_S1x320_S320x2944_S1x2944_1_0_0_1_n_n.lhsIdx_val_of_single rfl j q,
    fun j q => dot_S1x320_S320x2944_S1x2944_1_0_0_1_n_n.rhsIdx_val_of_single rfl j q,
    fun j q => by
      unfold DotDims.rhsIdx
      rw [dif_neg (show ¬(1 : Fin S320x2944.rank) ∈ dot_S1x320_S320x2944_S1x2944_1_0_0_1_n_n.rhsBatch by decide),
        dif_pos (show (1 : Fin S320x2944.rank) ∈ dot_S1x320_S320x2944_S1x2944_1_0_0_1_n_n.rhsNonContracting by decide)]
      rfl⟩

theorem rtc_hidden : RowsTimesCols dot_S1024x2944_S2944x1472_S1024x1472_1_0_0_1_n_n :=
  ⟨rfl, rfl,
    fun j q => by
      unfold DotDims.lhsIdx
      rw [dif_neg (show ¬(0 : Fin S1024x2944.rank) ∈ dot_S1024x2944_S2944x1472_S1024x1472_1_0_0_1_n_n.lhsBatch by decide),
        dif_pos (show (0 : Fin S1024x2944.rank) ∈ dot_S1024x2944_S2944x1472_S1024x1472_1_0_0_1_n_n.lhsNonContracting by decide)]
      rfl,
    fun j q => dot_S1024x2944_S2944x1472_S1024x1472_1_0_0_1_n_n.lhsIdx_val_of_single rfl j q,
    fun j q => dot_S1024x2944_S2944x1472_S1024x1472_1_0_0_1_n_n.rhsIdx_val_of_single rfl j q,
    fun j q => by
      unfold DotDims.rhsIdx
      rw [dif_neg (show ¬(1 : Fin S2944x1472.rank) ∈ dot_S1024x2944_S2944x1472_S1024x1472_1_0_0_1_n_n.rhsBatch by decide),
        dif_pos (show (1 : Fin S2944x1472.rank) ∈ dot_S1024x2944_S2944x1472_S1024x1472_1_0_0_1_n_n.rhsNonContracting by decide)]
      rfl⟩

theorem rtc_out : RowsTimesCols dot_S1024x1472_S1472x128_S1024x128_1_0_0_1_n_n :=
  ⟨rfl, rfl,
    fun j q => by
      unfold DotDims.lhsIdx
      rw [dif_neg (show ¬(0 : Fin S1024x1472.rank) ∈ dot_S1024x1472_S1472x128_S1024x128_1_0_0_1_n_n.lhsBatch by decide),
        dif_pos (show (0 : Fin S1024x1472.rank) ∈ dot_S1024x1472_S1472x128_S1024x128_1_0_0_1_n_n.lhsNonContracting by decide)]
      rfl,
    fun j q => dot_S1024x1472_S1472x128_S1024x128_1_0_0_1_n_n.lhsIdx_val_of_single rfl j q,
    fun j q => dot_S1024x1472_S1472x128_S1024x128_1_0_0_1_n_n.rhsIdx_val_of_single rfl j q,
    fun j q => by
      unfold DotDims.rhsIdx
      rw [dif_neg (show ¬(1 : Fin S1472x128.rank) ∈ dot_S1024x1472_S1472x128_S1024x128_1_0_0_1_n_n.rhsBatch by decide),
        dif_pos (show (1 : Fin S1472x128.rank) ∈ dot_S1024x1472_S1472x128_S1024x128_1_0_0_1_n_n.rhsNonContracting by decide)]
      rfl⟩

/-- A product into a zero accumulator read at entry `(p, q)`. -/
theorem mm_apply {a K b : ℕ} {d : DotDims ⟨2, ![a, K]⟩ ⟨2, ![K, b]⟩ ⟨2, ![a, b]⟩} {φ₁ φ₂ : FTy} (H : RowsTimesCols d)
    (l : FVec Ideal ⟨2, ![a, K]⟩ φ₁) (r : FVec Ideal ⟨2, ![K, b]⟩ φ₂) (p : Fin a) (q : Fin b) :
    matmul d none l r (constant (F := Ideal) ⟨2, ![a, b]⟩ .f32 0x00000000#32) (ix2 p q) = ∑ k : Fin K, l (ix2 p k) * r (ix2 k q) :=
  (Ideal.matmul_constant_zero_apply d none l r (ix2 p q)).trans (H.sum_eq l r p q)

/-! ## The first layer: the value the body rectifies, for the pair `(i, j)` -/

/-- The rectified first layer at `(i, j, h)`: the piecewise first layer of the rows `x[i]`, `x[j]`, `z`, `agg`. -/
theorem pay2_apply (v0 : Vec Ideal S1x32x320 .f32) (v3 : Vec Ideal S1x1x512 .f32) (v6 : Vec Ideal S1x1x320 .f32)
    (v9 v12 : Vec Ideal S320x2944 .bf16) (v15 : Vec Ideal S512x2944 .bf16) (v18 : Vec Ideal S320x2944 .bf16)
    (v24 : Vec Ideal S2944 .f32) (i j : Fin 32) (h : Fin 2944) :
    k0_pay2 (F := Ideal) v0 v3 v6 v9 v12 v15 v18 v24 (ix3 i j h)
      = relu zeroE (preFour (fun k => v0 (ix3 (0 : Fin 1) i k)) (fun k => v0 (ix3 (0 : Fin 1) j k))
          (fun k => v3 (ix3 (0 : Fin 1) (0 : Fin 1) k)) (fun k => v6 (ix3 (0 : Fin 1) (0 : Fin 1) k)) v9 v12 v15 v18
          (fun h => v24 (ix1 h))) h := by
  have hA : ∀ u : FVec Ideal S32x2944 .f32, broadcastTo S32x32x2944 (shapeCast S32x1x2944 u shapeCasts_S32x2944_S32x1x2944)
      broadcasts_S32x1x2944_S32x32x2944 (ix3 i j h) = u (ix2 i h) :=
    fun u => (bcastMid_apply _ _ i j h).trans (unitMid_apply u _ i (0 : Fin 1) h)
  have hB : ∀ u : FVec Ideal S32x2944 .f32, broadcastTo S32x32x2944 (shapeCast S1x32x2944 u shapeCasts_S32x2944_S1x32x2944)
      broadcasts_S1x32x2944_S32x32x2944 (ix3 i j h) = u (ix2 j h) :=
    fun u => (bcastLead_apply _ _ i j h).trans (shapeCast_ab_1ab_apply u _ (0 : Fin 1) j h)
  have hC : ∀ u : FVec Ideal S2944 .f32, broadcastTo S32x32x2944 (shapeCast S1x1x2944 u shapeCasts_S2944_S1x1x2944)
      broadcasts_S1x1x2944_S32x32x2944 (ix3 i j h) = u (ix1 h) :=
    fun u => (RankThree.bcastRow_apply _ _ i j h).trans (vecToUnits_apply u _ (0 : Fin 1) (0 : Fin 1) h)
  have hD : ∀ u : FVec Ideal S1x2944 .f32, shapeCast S2944 u shapeCasts_S1x2944_S2944 (ix1 h) = u (ix2 (0 : Fin 1) h) :=
    fun u => shapeCast_1a_a_apply u _ h
  have hx : ∀ (p : Fin 32) (k : Fin 320), shapeCast S32x320 v0 shapeCasts_S1x32x320_S32x320 (ix2 p k) = v0 (ix3 (0 : Fin 1) p k) :=
    fun p k => shapeCast_1ab_ab_apply v0 _ p k
  have hz : ∀ k : Fin 512, shapeCast S1x512 v3 shapeCasts_S1x1x512_S1x512 (ix2 (0 : Fin 1) k) = v3 (ix3 (0 : Fin 1) (0 : Fin 1) k) :=
    fun k => shapeCast_1ab_ab_apply v3 _ (0 : Fin 1) k
  have hg : ∀ k : Fin 320, shapeCast S1x320 v6 shapeCasts_S1x1x320_S1x320 (ix2 (0 : Fin 1) k) = v6 (ix3 (0 : Fin 1) (0 : Fin 1) k) :=
    fun k => shapeCast_1ab_ab_apply v6 _ (0 : Fin 1) k
  unfold k0_pay2 relu preFour
  simp only [maximumf_apply, addf_apply, broadcast_apply, hA, hB, hC, hD, mm_apply rtc_node, mm_apply rtc_latent, mm_apply rtc_agg,
    truncf_apply, hx, hz, hg, shapeCast_self]
  rfl

/-! ## The two later layers and the symmetrisation -/

/-- The stored value at row `i·32 + j`, column `a`: half the sum of the logits of the rows of `(i, j)` and of `(j, i)`,
    each the two later layers applied to the rectified first layer's row. -/
theorem pay1_apply (v35 : FVec Ideal S32x32x2944 .f32) (v38 : Vec Ideal S2944x1472 .bf16) (v41 : Vec Ideal S1472 .f32)
    (v48 : Vec Ideal S1472x128 .bf16) (v51 : Vec Ideal S128 .f32) (u : Fin 1) (i j : Fin 32) (a : Fin 128)
    (r : Fin 1024) (hr : r.val = i.val * 32 + j.val) :
    k0_pay1 (F := Ideal) v35 v38 v41 v48 v51 (ix3 u r a)
      = halfE * (headOf v38 (fun f => v41 (ix1 f)) v48 (fun a => v51 (ix1 a)) (fun h => v35 (ix3 i j h)) a
          + headOf v38 (fun f => v41 (ix1 f)) v48 (fun a => v51 (ix1 a)) (fun h => v35 (ix3 j i h)) a) := by
  -- the row of the transposed pair
  have hr'lt : j.val * 32 + i.val < 1024 := by have := i.isLt; have := j.isLt; omega
  -- the outer layout steps, for any [1024, 128] array of logits `w`
  have hOut : ∀ w : FVec Ideal S32x32x128 .f32, shapeCast S1x1024x128 (shapeCast S1024x128 w shapeCasts_S32x32x128_S1024x128)
      shapeCasts_S1024x128_S1x1024x128 (ix3 u r a) = w (ix3 i j a) :=
    fun w => (shapeCast_ab_1ab_apply _ _ u r a).trans (merge_ab_apply w _ i j a r hr)
  have hT : ∀ (w : FVec Ideal S32x32x128 .f32) (p q : Fin 32), transpose S32x32x128 [1, 0, 2] w transposes_S32x32x128_p1_0_2_S32x32x128
      (ix3 p q a) = w (ix3 q p a) := fun w p q => swapLead_apply w _ p q a
  have hS : ∀ (w : FVec Ideal S1024x128 .f32) (p q : Fin 32) (ρ : Fin 1024) (hρ : ρ.val = p.val * 32 + q.val),
      shapeCast S32x32x128 w shapeCasts_S1024x128_S32x32x128 (ix3 p q a) = w (ix2 ρ a) :=
    fun w p q ρ hρ => split_ab_apply w _ p q a ρ hρ
  -- the bias rows
  have hb3 : ∀ ρ : Fin 1024, broadcastTo S1024x128 (shapeCast S1x128 (shapeCast S128 v51 shapeCasts_S128_S128) shapeCasts_S128_S1x128)
      broadcasts_S1x128_S1024x128 (ix2 ρ a) = v51 (ix1 a) := fun ρ =>
    (broadcastTo_1b_ab_apply _ _ ρ a).trans ((shapeCast_a_1a_apply _ _ (0 : Fin 1) a).trans (congrFun (shapeCast_self v51 _) _))
  have hb2 : ∀ (ρ : Fin 1024) (f : Fin 1472), broadcastTo S1024x1472 (shapeCast S1x1472 v41 shapeCasts_S1472_S1x1472)
      broadcasts_S1x1472_S1024x1472 (ix2 ρ f) = v41 (ix1 f) := fun ρ f =>
    (broadcastTo_1b_ab_apply _ _ ρ f).trans (shapeCast_a_1a_apply _ _ (0 : Fin 1) f)
  -- the hidden rows: row `p·32 + q` of the flattened first layer is the pair `(p, q)`
  have hH : ∀ (p q : Fin 32) (ρ : Fin 1024) (hρ : ρ.val = p.val * 32 + q.val) (h : Fin 2944),
      shapeCast S1024x2944 (truncf .bf16 v35 bitsLt_bf16_f32 : FVec Ideal S32x32x2944 .bf16) shapeCasts_S32x32x2944_S1024x2944 (ix2 ρ h)
        = v35 (ix3 p q h) := fun p q ρ hρ h => merge_ab_apply _ _ p q h ρ hρ
  have hb3' : ∀ ρ : Fin 1024, broadcastTo S1024x128 (shapeCast S1x128 v51 shapeCasts_S128_S1x128)
      broadcasts_S1x128_S1024x128 (ix2 ρ a) = v51 (ix1 a) := fun ρ =>
    (broadcastTo_1b_ab_apply _ _ ρ a).trans (shapeCast_a_1a_apply _ _ (0 : Fin 1) a)
  unfold k0_pay1
  simp only [hOut, mulf_apply, addf_apply, broadcast_apply, hT, hS _ i j r hr, hS _ j i ⟨j.val * 32 + i.val, hr'lt⟩ rfl, hb3, hb3', hb2,
    mm_apply rtc_out, mm_apply rtc_hidden, truncf_apply, maximumf_apply, shapeCast_self, hH i j r hr,
    hH j i ⟨j.val * 32 + i.val, hr'lt⟩ rfl]
  rfl

end Cert.KernelIdeal.Body

end
-- ==== Proof.KernelBlock.lean ====
/-
  From the blocks the grid points write back to the whole padded output array.

  Grid point `t` handles graph `t`: it stages rows `t` of the node, latent and aggregate arrays and the whole of every
  weight and bias array, and writes back block `t` ([1, 1024, 128]) of the padded output. The 64 blocks tile the
  array, so after the region the array is one function of the staged arrays: at `(b, i·32 + j, a)` half the sum of the
  logits of the pairs `(i, j)` and `(j, i)` of graph `b`.
-/
import proofs.«168549_j88691074662617_2_alg».proof.Proof.Gen.KernelIdeal.Frame
import proofs.«168549_j88691074662617_2_alg».proof.Proof.KernelBody
import Idealize.ShloMosaic.Lib.Pipeline.Value

open scoped BigOperators

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)
open Cert.RowLayers Cert.EdgeMlp Cert.KernelIdeal.Body

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The body's result, at an entry, from its input blocks -/

/-- The logits row of the pair `(i, j)` from one point's input blocks. -/
def blockHead (x0 : Vec Ideal S1x32x320 .f32) (x1 : Vec Ideal S1x1x512 .f32) (x2 : Vec Ideal S1x1x320 .f32)
    (x3 x4 : Vec Ideal S320x2944 .bf16) (x5 : Vec Ideal S512x2944 .bf16) (x6 : Vec Ideal S320x2944 .bf16) (x7 : Vec Ideal S2944 .f32)
    (x8 : Vec Ideal S2944x1472 .bf16) (x9 : Vec Ideal S1472 .f32) (x10 : Vec Ideal S1472x128 .bf16) (x11 : Vec Ideal S128 .f32)
    (i j : Fin 32) : Fin 128 → EReal :=
  headOf x8 (fun f => x9 (ix1 f)) x10 (fun a => x11 (ix1 a))
    (relu zeroE (preFour (fun k => x0 (ix3 (0 : Fin 1) i k)) (fun k => x0 (ix3 (0 : Fin 1) j k))
      (fun k => x1 (ix3 (0 : Fin 1) (0 : Fin 1) k)) (fun k => x2 (ix3 (0 : Fin 1) (0 : Fin 1) k)) x3 x4 x5 x6 (fun h => x7 (ix1 h))))

/-- What the body leaves in the output block, at row `i·32 + j` and column `a`. -/
theorem out_block_apply (x0 : Vec Ideal S1x32x320 .f32) (x1 : Vec Ideal S1x1x512 .f32) (x2 : Vec Ideal S1x1x320 .f32)
    (x3 x4 : Vec Ideal S320x2944 .bf16) (x5 : Vec Ideal S512x2944 .bf16) (x6 : Vec Ideal S320x2944 .bf16) (x7 : Vec Ideal S2944 .f32)
    (x8 : Vec Ideal S2944x1472 .bf16) (x9 : Vec Ideal S1472 .f32) (x10 : Vec Ideal S1472x128 .bf16) (x11 : Vec Ideal S128 .f32)
    (u : Fin 1) (i j : Fin 32) (a : Fin 128) (r : Fin 1024) (hr : r.val = i.val * 32 + j.val) :
    out0_12 (F := Ideal) x0 x1 x2 x3 x4 x5 x6 x7 x8 x9 x10 x11 (ix3 u r a)
      = halfE * (blockHead x0 x1 x2 x3 x4 x5 x6 x7 x8 x9 x10 x11 i j a + blockHead x0 x1 x2 x3 x4 x5 x6 x7 x8 x9 x10 x11 j i a) := by
  unfold out0_12
  rw [View.canon_unit_zero hz3]
  simp only [View.ld_unit_zero (S := S1x32x320) hz3, View.ld_unit_zero (S := S1x1x512) hz3, View.ld_unit_zero (S := S1x1x320) hz3,
    View.ld_unit_zero (S := S320x2944) hz2, View.ld_unit_zero (S := S512x2944) hz2, View.ld_unit_zero (S := S2944) hz1,
    View.ld_unit_zero (S := S2944x1472) hz2, View.ld_unit_zero (S := S1472) hz1, View.ld_unit_zero (S := S1472x128) hz2,
    View.ld_unit_zero (S := S128) hz1]
  rw [pay1_apply _ x8 x9 x10 x11 u i j a r hr]
  unfold blockHead
  have e1 : (fun h => k0_pay2 (F := Ideal) x0 x1 x2 x3 x4 x5 x6 x7 (ix3 i j h)) = relu zeroE (preFour (fun k => x0 (ix3 (0 : Fin 1) i k))
      (fun k => x0 (ix3 (0 : Fin 1) j k)) (fun k => x1 (ix3 (0 : Fin 1) (0 : Fin 1) k)) (fun k => x2 (ix3 (0 : Fin 1) (0 : Fin 1) k))
      x3 x4 x5 x6 (fun h => x7 (ix1 h))) := funext fun h => pay2_apply x0 x1 x2 x3 x4 x5 x6 x7 i j h
  have e2 : (fun h => k0_pay2 (F := Ideal) x0 x1 x2 x3 x4 x5 x6 x7 (ix3 j i h)) = relu zeroE (preFour (fun k => x0 (ix3 (0 : Fin 1) j k))
      (fun k => x0 (ix3 (0 : Fin 1) i k)) (fun k => x1 (ix3 (0 : Fin 1) (0 : Fin 1) k)) (fun k => x2 (ix3 (0 : Fin 1) (0 : Fin 1) k))
      x3 x4 x5 x6 (fun h => x7 (ix1 h))) := funext fun h => pay2_apply x0 x1 x2 x3 x4 x5 x6 x7 j i h
  rw [e1, e2]

/-! ## The windows' index maps, decided over the grid -/

structure IdxFacts (t : Fin cfg0.N) : Prop where
  w0 : win0_0.index t (0 : Fin 3) = t.val ∧ win0_0.index t (1 : Fin 3) = 0 ∧ win0_0.index t (2 : Fin 3) = 0
  w1 : win0_1.index t (0 : Fin 3) = t.val ∧ win0_1.index t (1 : Fin 3) = 0 ∧ win0_1.index t (2 : Fin 3) = 0
  w2 : win0_2.index t (0 : Fin 3) = t.val ∧ win0_2.index t (1 : Fin 3) = 0 ∧ win0_2.index t (2 : Fin 3) = 0
  w3 : win0_3.index t (0 : Fin 2) = 0 ∧ win0_3.index t (1 : Fin 2) = 0
  w4 : win0_4.index t (0 : Fin 2) = 0 ∧ win0_4.index t (1 : Fin 2) = 0
  w5 : win0_5.index t (0 : Fin 2) = 0 ∧ win0_5.index t (1 : Fin 2) = 0
  w6 : win0_6.index t (0 : Fin 2) = 0 ∧ win0_6.index t (1 : Fin 2) = 0
  w7 : win0_7.index t (0 : Fin 1) = 0
  w8 : win0_8.index t (0 : Fin 2) = 0 ∧ win0_8.index t (1 : Fin 2) = 0
  w9 : win0_9.index t (0 : Fin 1) = 0
  w10 : win0_10.index t (0 : Fin 2) = 0 ∧ win0_10.index t (1 : Fin 2) = 0
  w11 : win0_11.index t (0 : Fin 1) = 0
  w12 : win0_12.index t (0 : Fin 3) = t.val ∧ win0_12.index t (1 : Fin 3) = 0 ∧ win0_12.index t (2 : Fin 3) = 0

theorem idx_facts : ∀ t : Fin cfg0.N, IdxFacts t :=
  fun t => ⟨(by decide +kernel : ∀ t : Fin grid0.N, win0_0.index t (0 : Fin 3) = t.val ∧ win0_0.index t (1 : Fin 3) = 0 ∧ win0_0.index t (2 : Fin 3) = 0) t,
    (by decide +kernel : ∀ t : Fin grid0.N, win0_1.index t (0 : Fin 3) = t.val ∧ win0_1.index t (1 : Fin 3) = 0 ∧ win0_1.index t (2 : Fin 3) = 0) t,
    (by decide +kernel : ∀ t : Fin grid0.N, win0_2.index t (0 : Fin 3) = t.val ∧ win0_2.index t (1 : Fin 3) = 0 ∧ win0_2.index t (2 : Fin 3) = 0) t,
    (by decide +kernel : ∀ t : Fin grid0.N, win0_3.index t (0 : Fin 2) = 0 ∧ win0_3.index t (1 : Fin 2) = 0) t,
    (by decide +kernel : ∀ t : Fin grid0.N, win0_4.index t (0 : Fin 2) = 0 ∧ win0_4.index t (1 : Fin 2) = 0) t,
    (by decide +kernel : ∀ t : Fin grid0.N, win0_5.index t (0 : Fin 2) = 0 ∧ win0_5.index t (1 : Fin 2) = 0) t,
    (by decide +kernel : ∀ t : Fin grid0.N, win0_6.index t (0 : Fin 2) = 0 ∧ win0_6.index t (1 : Fin 2) = 0) t,
    (by decide +kernel : ∀ t : Fin grid0.N, win0_7.index t (0 : Fin 1) = 0) t,
    (by decide +kernel : ∀ t : Fin grid0.N, win0_8.index t (0 : Fin 2) = 0 ∧ win0_8.index t (1 : Fin 2) = 0) t,
    (by decide +kernel : ∀ t : Fin grid0.N, win0_9.index t (0 : Fin 1) = 0) t,
    (by decide +kernel : ∀ t : Fin grid0.N, win0_10.index t (0 : Fin 2) = 0 ∧ win0_10.index t (1 : Fin 2) = 0) t,
    (by decide +kernel : ∀ t : Fin grid0.N, win0_11.index t (0 : Fin 1) = 0) t,
    (by decide +kernel : ∀ t : Fin grid0.N, win0_12.index t (0 : Fin 3) = t.val ∧ win0_12.index t (1 : Fin 3) = 0 ∧ win0_12.index t (2 : Fin 3) = 0) t⟩

/-! ## The staged arrays, and each window's block read off its array -/

variable (m : (ℓ : Loc nD τ sig) → Buf (Elt Ideal) ℓ) (c : Dev nD)

/-- Window 0's block at point `t` is graph `t`'s node rows. -/
theorem iblk0_apply (t : Fin cfg0.N) (u : Fin 1) (i : Fin 32) (k : Fin 320) :
    (iblk m c 0 t : S1x32x320.Idx → EReal) (ix3 u i k) = (V m c main_v15 : S64x32x320.Idx → EReal) (ix3 (t.cast N_0) i k) := by
  unfold iblk
  show V m c main_v15 (((cfg0.win 0).blk t).view.emb (ix3 u i k)) = V m c main_v15 (ix3 (t.cast N_0) i k)
  refine congrArg (V m c main_v15) (funext fun a => Fin.ext ?_)
  have e := (idx_facts t).w0
  have hu : u.val = 0 := by omega
  match a with
  | ⟨0, _⟩ => show win0_0.index t (0 : Fin 3) * 1 + 1 * u.val = t.val; omega
  | ⟨1, _⟩ => show win0_0.index t (1 : Fin 3) * 32 + 1 * i.val = i.val; omega
  | ⟨2, _⟩ => show win0_0.index t (2 : Fin 3) * 320 + 1 * k.val = k.val; omega

/-- Window 1's block at point `t` is graph `t`'s latent row. -/
theorem iblk1_apply (t : Fin cfg0.N) (u u' : Fin 1) (k : Fin 512) :
    (iblk m c 1 t : S1x1x512.Idx → EReal) (ix3 u u' k) = (V m c main_v19 : S64x1x512.Idx → EReal) (ix3 (t.cast N_0) (0 : Fin 1) k) := by
  unfold iblk
  show V m c main_v19 (((cfg0.win 1).blk t).view.emb (ix3 u u' k)) = V m c main_v19 (ix3 (t.cast N_0) (0 : Fin 1) k)
  refine congrArg (V m c main_v19) (funext fun a => Fin.ext ?_)
  have e := (idx_facts t).w1
  have hu : u.val = 0 := by omega
  have hu' : u'.val = 0 := by omega
  match a with
  | ⟨0, _⟩ => show win0_1.index t (0 : Fin 3) * 1 + 1 * u.val = t.val; omega
  | ⟨1, _⟩ => show win0_1.index t (1 : Fin 3) * 1 + 1 * u'.val = 0; omega
  | ⟨2, _⟩ => show win0_1.index t (2 : Fin 3) * 512 + 1 * k.val = k.val; omega

/-- Window 2's block at point `t` is graph `t`'s aggregate row. -/
theorem iblk2_apply (t : Fin cfg0.N) (u u' : Fin 1) (k : Fin 320) :
    (iblk m c 2 t : S1x1x320.Idx → EReal) (ix3 u u' k) = (V m c main_v20 : S64x1x320.Idx → EReal) (ix3 (t.cast N_0) (0 : Fin 1) k) := by
  unfold iblk
  show V m c main_v20 (((cfg0.win 2).blk t).view.emb (ix3 u u' k)) = V m c main_v20 (ix3 (t.cast N_0) (0 : Fin 1) k)
  refine congrArg (V m c main_v20) (funext fun a => Fin.ext ?_)
  have e := (idx_facts t).w2
  have hu : u.val = 0 := by omega
  have hu' : u'.val = 0 := by omega
  match a with
  | ⟨0, _⟩ => show win0_2.index t (0 : Fin 3) * 1 + 1 * u.val = t.val; omega
  | ⟨1, _⟩ => show win0_2.index t (1 : Fin 3) * 1 + 1 * u'.val = 0; omega
  | ⟨2, _⟩ => show win0_2.index t (2 : Fin 3) * 320 + 1 * k.val = k.val; omega

/-- Window 3 stages its whole array at every point. -/
theorem iblk3_eq (t : Fin cfg0.N) : (iblk m c 3 t : S320x2944.Idx → EReal) = V m c main_v22 := by
  unfold iblk
  funext y
  show V m c main_v22 (((cfg0.win 3).blk t).view.emb y) = V m c main_v22 y
  refine congrArg (V m c main_v22) (funext fun a => Fin.ext ?_)
  have e := idx_facts t
  match a with
  | ⟨0, _⟩ => show win0_3.index t (0 : Fin 2) * 320 + 1 * (y 0).val = (y 0).val; have := e.w3.1; omega
  | ⟨1, _⟩ => show win0_3.index t (1 : Fin 2) * 2944 + 1 * (y 1).val = (y 1).val; have := e.w3.2; omega

/-- Window 4 stages its whole array at every point. -/
theorem iblk4_eq (t : Fin cfg0.N) : (iblk m c 4 t : S320x2944.Idx → EReal) = V m c main_v24 := by
  unfold iblk
  funext y
  show V m c main_v24 (((cfg0.win 4).blk t).view.emb y) = V m c main_v24 y
  refine congrArg (V m c main_v24) (funext fun a => Fin.ext ?_)
  have e := idx_facts t
  match a with
  | ⟨0, _⟩ => show win0_4.index t (0 : Fin 2) * 320 + 1 * (y 0).val = (y 0).val; have := e.w4.1; omega
  | ⟨1, _⟩ => show win0_4.index t (1 : Fin 2) * 2944 + 1 * (y 1).val = (y 1).val; have := e.w4.2; omega

/-- Window 5 stages its whole array at every point. -/
theorem iblk5_eq (t : Fin cfg0.N) : (iblk m c 5 t : S512x2944.Idx → EReal) = V m c main_v26 := by
  unfold iblk
  funext y
  show V m c main_v26 (((cfg0.win 5).blk t).view.emb y) = V m c main_v26 y
  refine congrArg (V m c main_v26) (funext fun a => Fin.ext ?_)
  have e := idx_facts t
  match a with
  | ⟨0, _⟩ => show win0_5.index t (0 : Fin 2) * 512 + 1 * (y 0).val = (y 0).val; have := e.w5.1; omega
  | ⟨1, _⟩ => show win0_5.index t (1 : Fin 2) * 2944 + 1 * (y 1).val = (y 1).val; have := e.w5.2; omega

/-- Window 6 stages its whole array at every point. -/
theorem iblk6_eq (t : Fin cfg0.N) : (iblk m c 6 t : S320x2944.Idx → EReal) = V m c main_v28 := by
  unfold iblk
  funext y
  show V m c main_v28 (((cfg0.win 6).blk t).view.emb y) = V m c main_v28 y
  refine congrArg (V m c main_v28) (funext fun a => Fin.ext ?_)
  have e := idx_facts t
  match a with
  | ⟨0, _⟩ => show win0_6.index t (0 : Fin 2) * 320 + 1 * (y 0).val = (y 0).val; have := e.w6.1; omega
  | ⟨1, _⟩ => show win0_6.index t (1 : Fin 2) * 2944 + 1 * (y 1).val = (y 1).val; have := e.w6.2; omega

/-- Window 7 stages its whole array at every point. -/
theorem iblk7_eq (t : Fin cfg0.N) : (iblk m c 7 t : S2944.Idx → EReal) = V m c main_arg6 := by
  unfold iblk
  funext y
  show V m c main_arg6 (((cfg0.win 7).blk t).view.emb y) = V m c main_arg6 y
  refine congrArg (V m c main_arg6) (funext fun a => Fin.ext ?_)
  have e := idx_facts t
  match a with
  | ⟨0, _⟩ => show win0_7.index t (0 : Fin 1) * 2944 + 1 * (y 0).val = (y 0).val; have := e.w7; omega

/-- Window 8 stages its whole array at every point. -/
theorem iblk8_eq (t : Fin cfg0.N) : (iblk m c 8 t : S2944x1472.Idx → EReal) = V m c main_v29 := by
  unfold iblk
  funext y
  show V m c main_v29 (((cfg0.win 8).blk t).view.emb y) = V m c main_v29 y
  refine congrArg (V m c main_v29) (funext fun a => Fin.ext ?_)
  have e := idx_facts t
  match a with
  | ⟨0, _⟩ => show win0_8.index t (0 : Fin 2) * 2944 + 1 * (y 0).val = (y 0).val; have := e.w8.1; omega
  | ⟨1, _⟩ => show win0_8.index t (1 : Fin 2) * 1472 + 1 * (y 1).val = (y 1).val; have := e.w8.2; omega

/-- Window 9 stages its whole array at every point. -/
theorem iblk9_eq (t : Fin cfg0.N) : (iblk m c 9 t : S1472.Idx → EReal) = V m c main_arg8 := by
  unfold iblk
  funext y
  show V m c main_arg8 (((cfg0.win 9).blk t).view.emb y) = V m c main_arg8 y
  refine congrArg (V m c main_arg8) (funext fun a => Fin.ext ?_)
  have e := idx_facts t
  match a with
  | ⟨0, _⟩ => show win0_9.index t (0 : Fin 1) * 1472 + 1 * (y 0).val = (y 0).val; have := e.w9; omega

/-- Window 10 stages its whole array at every point. -/
theorem iblk10_eq (t : Fin cfg0.N) : (iblk m c 10 t : S1472x128.Idx → EReal) = V m c main_v33 := by
  unfold iblk
  funext y
  show V m c main_v33 (((cfg0.win 10).blk t).view.emb y) = V m c main_v33 y
  refine congrArg (V m c main_v33) (funext fun a => Fin.ext ?_)
  have e := idx_facts t
  match a with
  | ⟨0, _⟩ => show win0_10.index t (0 : Fin 2) * 1472 + 1 * (y 0).val = (y 0).val; have := e.w10.1; omega
  | ⟨1, _⟩ => show win0_10.index t (1 : Fin 2) * 128 + 1 * (y 1).val = (y 1).val; have := e.w10.2; omega

/-- Window 11 stages its whole array at every point. -/
theorem iblk11_eq (t : Fin cfg0.N) : (iblk m c 11 t : S128.Idx → EReal) = V m c main_v36 := by
  unfold iblk
  funext y
  show V m c main_v36 (((cfg0.win 11).blk t).view.emb y) = V m c main_v36 y
  refine congrArg (V m c main_v36) (funext fun a => Fin.ext ?_)
  have e := idx_facts t
  match a with
  | ⟨0, _⟩ => show win0_11.index t (0 : Fin 1) * 128 + 1 * (y 0).val = (y 0).val; have := e.w11; omega

/-! ## The padded output array as one function of the staged arrays -/

/-- The logits row of the pair `(i, j)` of graph `b`, from the arrays as the region finds them. -/
def pairHead (b : Fin 64) (i j : Fin 32) : Fin 128 → EReal :=
  headOf (V m c main_v29 : S2944x1472.Idx → EReal) (fun f => (V m c main_arg8 : S1472.Idx → EReal) (ix1 f))
    (V m c main_v33 : S1472x128.Idx → EReal) (fun a => (V m c main_v36 : S128.Idx → EReal) (ix1 a))
    (relu zeroE (preFour (fun k => (V m c main_v15 : S64x32x320.Idx → EReal) (ix3 b i k))
      (fun k => (V m c main_v15 : S64x32x320.Idx → EReal) (ix3 b j k))
      (fun k => (V m c main_v19 : S64x1x512.Idx → EReal) (ix3 b (0 : Fin 1) k))
      (fun k => (V m c main_v20 : S64x1x320.Idx → EReal) (ix3 b (0 : Fin 1) k))
      (V m c main_v22 : S320x2944.Idx → EReal) (V m c main_v24 : S320x2944.Idx → EReal) (V m c main_v26 : S512x2944.Idx → EReal)
      (V m c main_v28 : S320x2944.Idx → EReal) (fun h => (V m c main_arg6 : S2944.Idx → EReal) (ix1 h))))

/-- The padded output: at `(b, r, a)`, with `r = i·32 + j`, half the sum of the logits of `(i, j)` and `(j, i)`. -/
def padOut : S64x1024x128.Idx → EReal := fun e =>
  halfE * (pairHead m c (e 0) ⟨(e 1).val / 32, by have h1 : (e 1).val < 1024 := (e 1).isLt; show (e 1).val / 32 < 32; omega⟩ ⟨(e 1).val % 32, Nat.mod_lt _ (by decide)⟩ (e 2)
    + pairHead m c (e 0) ⟨(e 1).val % 32, Nat.mod_lt _ (by decide)⟩ ⟨(e 1).val / 32, by have h1 : (e 1).val < 1024 := (e 1).isLt; show (e 1).val / 32 < 32; omega⟩ (e 2))

/-- The padded output at an entry given by coordinates. -/
theorem padOut_apply (b : Fin 64) (i j : Fin 32) (a : Fin 128) (r : Fin 1024) (hr : r.val = i.val * 32 + j.val) :
    padOut m c (ix3 b r a) = halfE * (pairHead m c b i j a + pairHead m c b j i a) := by
  have hi : (⟨r.val / 32, by have := r.isLt; omega⟩ : Fin 32) = i := Fin.ext (by show r.val / 32 = i.val; have := j.isLt; omega)
  have hj : (⟨r.val % 32, Nat.mod_lt _ (by decide)⟩ : Fin 32) = j := Fin.ext (by show r.val % 32 = j.val; have := j.isLt; omega)
  show halfE * (pairHead m c b ⟨r.val / 32, _⟩ ⟨r.val % 32, _⟩ a + pairHead m c b ⟨r.val % 32, _⟩ ⟨r.val / 32, _⟩ a) = _
  rw [hi, hj]

/-- The block-level logits at point `t` are graph `t`'s. -/
theorem blockHead_iblk (t : Fin cfg0.N) (i j : Fin 32) :
    blockHead (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) i j = pairHead m c (t.cast N_0) i j := by
  unfold blockHead pairHead
  simp only [iblk0_apply m c t, iblk1_apply m c t, iblk2_apply m c t]
  rw [iblk3_eq m c t, iblk4_eq m c t, iblk5_eq m c t, iblk6_eq m c t, iblk7_eq m c t, iblk8_eq m c t, iblk9_eq m c t, iblk10_eq m c t,
    iblk11_eq m c t]

/-! ## What a point writes back, the cover, the array -/

/-- An index of the array is in point `t`'s block iff each coordinate is in the block's range on its axis. -/
theorem mem_blk (t : Fin cfg0.N) (i : S64x1024x128.Idx) :
    i ∈ ((cfg0.win 12).blk t).view.set ↔ ∀ a : Fin 3, win0_12.index t a * S1x1024x128.size a ≤ (i a).val
      ∧ (i a).val < win0_12.index t a * S1x1024x128.size a + S1x1024x128.size a := by
  show i ∈ ((View.whole main_v37).slice (win0_12.rect t)).set ↔ _
  rw [View.set_slice_whole, Rect.mem_set_unit]
  exact Iff.rfl

/-- WHAT POINT `t` WRITES BACK is block `t` of the padded output. -/
theorem flushed_eq (t : Fin cfg0.N) :
    (dats m 0 c).flushed 12 t = ((cfg0.win 12).blk t).view.read (Elt Ideal) (padOut m c) := by
  show (cfg0.win 12).cut (grid0.coords t) ((dats m 0 c).after 12 t) = _
  rw [after0_12]
  funext y
  obtain ⟨u, r, a, rfl⟩ : ∃ (u : Fin 1) (r : Fin 1024) (a : Fin 128), y = ix3 u r a :=
    ⟨y 0, y 1, y 2, eq_ix3 (n0 := 1) (n1 := 1024) (n2 := 128) y⟩
  have hrl : r.val / 32 < 32 := by have := r.isLt; omega
  show out0_12 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (ix3 u r a) = padOut m c (((cfg0.win 12).blk t).view.emb (ix3 u r a))
  rw [out_block_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) u ⟨r.val / 32, hrl⟩ ⟨r.val % 32, Nat.mod_lt _ (by decide)⟩ a r
    (by show r.val = r.val / 32 * 32 + r.val % 32; omega), blockHead_iblk, blockHead_iblk]
  have hemb : ((cfg0.win 12).blk t).view.emb (ix3 u r a) = (ix3 (t.cast N_0) r a : S64x1024x128.Idx) := by
    funext ax; apply Fin.ext
    have e := (idx_facts t).w12
    have hu : u.val = 0 := by omega
    match ax with
    | ⟨0, _⟩ => show win0_12.index t (0 : Fin 3) * 1 + 1 * u.val = t.val; omega
    | ⟨1, _⟩ => show win0_12.index t (1 : Fin 3) * 1024 + 1 * r.val = r.val; omega
    | ⟨2, _⟩ => show win0_12.index t (2 : Fin 3) * 128 + 1 * a.val = a.val; omega
  rw [hemb, padOut_apply m c (t.cast N_0) ⟨r.val / 32, hrl⟩ ⟨r.val % 32, Nat.mod_lt _ (by decide)⟩ a r
    (by show r.val = r.val / 32 * 32 + r.val % 32; omega)]

/-- Every index of the padded output lies in the block of the point of its graph. -/
theorem covered (i : S64x1024x128.Idx) : ∃ t : Fin cfg0.N, (cfg0.win 12).flush t = true ∧ i ∈ ((cfg0.win 12).blk t).view.set := by
  have h0 : (i 0).val < 64 := (i 0).isLt
  have h1 : (i 1).val < 1024 := (i 1).isLt
  have h2 : (i 2).val < 128 := (i 2).isLt
  let t : Fin cfg0.N := (⟨(i 0).val, h0⟩ : Fin 64).cast N_0.symm
  refine ⟨t, flush0_12 t, ?_⟩
  rw [mem_blk]
  have e := (idx_facts t).w12
  have ht : t.val = (i 0).val := rfl
  intro ax
  match ax with
  | ⟨0, _⟩ => show win0_12.index t (0 : Fin 3) * 1 ≤ (i 0).val ∧ (i 0).val < win0_12.index t (0 : Fin 3) * 1 + 1; omega
  | ⟨1, _⟩ => show win0_12.index t (1 : Fin 3) * 1024 ≤ (i 1).val ∧ (i 1).val < win0_12.index t (1 : Fin 3) * 1024 + 1024; omega
  | ⟨2, _⟩ => show win0_12.index t (2 : Fin 3) * 128 ≤ (i 2).val ∧ (i 2).val < win0_12.index t (2 : Fin 3) * 128 + 128; omega

/-- THE PADDED OUTPUT ARRAY after the region. -/
theorem final : (dats m 0 c).arrAt 12 cfg0.N = padOut m c :=
  (dats m 0 c).arrAt_eq_of_cover 12 (padOut m c) (fun t _ => flushed_eq m c t) (covered)

end Cert.KernelIdeal.Blocks

end
-- ==== Proof.KernelHost.lean ====
/-
  The arrays the kernel region finds, as functions of the program's arguments.

  Before the region the host gathers the node rows, averages them per graph, cuts the first layer's weight matrix into
  its four blocks of rows, and pads the last layer's weights and bias with zero columns. Each staged array is read
  here at an entry: a block of weight rows is the matching rows of the whole matrix; the padded arrays agree with the
  originals on the columns kept; the latent and aggregate rows carry a unit middle axis. The node rows and the
  per-graph mean come from host lines the reference program shares word for word, so they are named by the
  reference's own stages and never opened. With these, the logits the region computes for a pair of nodes are the
  specification's.
-/
import proofs.«168549_j88691074662617_2_alg».proof.Proof.Gen.KernelIdeal.Frame
import proofs.«168549_j88691074662617_2_alg».proof.Proof.Gen.ReferenceIdeal.Read
import proofs.«168549_j88691074662617_2_alg».proof.Proof.LibScatterSet
import proofs.«168549_j88691074662617_2_alg».proof.Proof.KernelBlock
import Idealize.ShloMosaic.Lib.StableHlo.Run
import Idealize.ShloMosaic.Lib.ValueLayout

open scoped BigOperators

noncomputable section

namespace Cert.KernelIdeal.HostSide

open Cert.KernelIdeal Cert.KernelIdeal.Gen Idealize.ShloMosaic Idealize.ShloMosaic.TcCoe Idealize.ShloMosaic.ValueIdx
open Idealize.SL.Sem Idealize.ShloMosaic.StableHlo
open Cert.RowLayers Cert.EdgeMlp Cert.KernelIdeal.Blocks

/-- An `[a, c]` array given a unit middle axis by `broadcast_in_dim` along axes 0 and 2. -/
theorem keepMid_apply {α : Type} {a n : ℕ} (x : (⟨2, ![a, n]⟩ : Shape).Idx → α)
    (h : (⟨2, ![a, n]⟩ : Shape).BroadcastsInDim ⟨3, ![a, 1, n]⟩ ![0, 2]) (p : Fin a) (u : Fin 1) (k : Fin n) :
    broadcastInDim ⟨3, ![a, 1, n]⟩ ![0, 2] h x (ix3 p u k) = x (ix2 p k) :=
  broadcastInDim_apply _ h x _ _ fun ax => by
    match ax with
    | ⟨0, _⟩ => show p.val = if a = 1 then 0 else p.val; split <;> [(have := p.isLt; omega); rfl]
    | ⟨1, _⟩ => show k.val = if n = 1 then 0 else k.val; split <;> [(have := k.isLt; omega); rfl]

variable (m : (ℓ : Loc nD τ sig) → Buf (Elt Ideal) ℓ) (c : Dev nD)

/-! ## The arguments, as launched -/

/-- The latent rows. -/
abbrev zArr : S64x512.Idx → EReal := m ((c : Thread nD τ).loc main_arg2)
/-- The first layer's weight matrix and bias. -/
abbrev w1 : S1472x2944.Idx → EReal := m ((c : Thread nD τ).loc main_arg5)
abbrev bias1 : S2944.Idx → EReal := m ((c : Thread nD τ).loc main_arg6)
/-- The second layer's. -/
abbrev w2 : S2944x1472.Idx → EReal := m ((c : Thread nD τ).loc main_arg7)
abbrev bias2 : S1472.Idx → EReal := m ((c : Thread nD τ).loc main_arg8)
/-- The third layer's. -/
abbrev w3 : S1472x11.Idx → EReal := m ((c : Thread nD τ).loc main_arg9)
abbrev bias3 : S11.Idx → EReal := m ((c : Thread nD τ).loc main_arg10)

/-- The node rows: the reference's stage of the same four arguments. -/
abbrev nodeRows : S64x32x320.Idx → EReal :=
  Cert.ReferenceIdeal.Read.val_main_v15 (F := Ideal) (m ((c : Thread nD τ).loc main_arg0)) (m ((c : Thread nD τ).loc main_arg1))
    (m ((c : Thread nD τ).loc main_arg3)) (m ((c : Thread nD τ).loc main_arg4))
/-- The per-graph mean of the node rows: the reference's stage of the same four arguments. -/
abbrev aggRows : S64x320.Idx → EReal :=
  Cert.ReferenceIdeal.Read.val_main_v18 (F := Ideal) (m ((c : Thread nD τ).loc main_arg0)) (m ((c : Thread nD τ).loc main_arg1))
    (m ((c : Thread nD τ).loc main_arg3)) (m ((c : Thread nD τ).loc main_arg4))

/-! ## The staged arrays -/

set_option maxHeartbeats 2000000 in
set_option maxRecDepth 8192 in
/-- The node rows the region stages are the reference's node rows of the same arguments. -/
theorem V_v15_eq : (V m c main_v15 : S64x32x320.Idx → EReal) = nodeRows m c := by
  show StableHlo.after hostOps0 (fun b => m (c, b)) (Proc.devRef .tc main_v15) = _
  after_results_simp <;> rfl

/-- The latent rows with a unit middle axis. -/
theorem V_v19_apply (b : Fin 64) (u : Fin 1) (k : Fin 512) :
    (V m c main_v19 : S64x1x512.Idx → EReal) (ix3 b u k) = zArr m c (ix2 b k) := by
  have e : (V m c main_v19 : S64x1x512.Idx → EReal) = broadcastInDim S64x1x512 ![0, 2] bcast_S64x512_S64x1x512_0_2 (zArr m c) := by
    show StableHlo.after hostOps0 (fun b => m (c, b)) (Proc.devRef .tc main_v19) = _
    after_results
  rw [e]
  exact keepMid_apply (zArr m c) _ b u k

set_option maxHeartbeats 2000000 in
set_option maxRecDepth 8192 in
/-- The aggregate rows with a unit middle axis. -/
theorem V_v20_eq : (V m c main_v20 : S64x1x320.Idx → EReal)
    = broadcastInDim S64x1x320 ![0, 2] bcast_S64x320_S64x1x320_0_2 (aggRows m c) := by
  show StableHlo.after hostOps0 (fun b => m (c, b)) (Proc.devRef .tc main_v20) = _
  after_results_simp <;> rfl

theorem V_v20_apply (b : Fin 64) (u : Fin 1) (k : Fin 320) :
    (V m c main_v20 : S64x1x320.Idx → EReal) (ix3 b u k) = aggRows m c (ix2 b k) := by
  rw [V_v20_eq]
  exact keepMid_apply (aggRows m c) _ b u k

/-- The first block of weight rows: rows 0 … 319. -/
theorem V_v22_apply (k : Fin 320) (h : Fin 2944) :
    (V m c main_v22 : S320x2944.Idx → EReal) (ix2 k h) = w1 m c (ix2 ⟨k.val, by have := k.isLt; omega⟩ h) := by
  have e : (V m c main_v22 : S320x2944.Idx → EReal)
      = truncf .bf16 (extractStridedSlice S320x2944 ![0, 0] (w1 m c) slices_S1472x2944_S320x2944_0_0 : FVec Ideal S320x2944 .f32) bitsLt_bf16_f32 := by
    show StableHlo.after hostOps0 (fun b => m (c, b)) (Proc.devRef .tc main_v22) = _
    after_results
  rw [e]
  exact slice2_axis0_apply 0 (w1 m c) slices_S1472x2944_S320x2944_0_0 k h _ (by show k.val = 0 + k.val; omega)

/-- The second block: rows 320 … 639. -/
theorem V_v24_apply (k : Fin 320) (h : Fin 2944) :
    (V m c main_v24 : S320x2944.Idx → EReal) (ix2 k h) = w1 m c (ix2 ⟨320 + k.val, by have := k.isLt; omega⟩ h) := by
  have e : (V m c main_v24 : S320x2944.Idx → EReal)
      = truncf .bf16 (extractStridedSlice S320x2944 ![320, 0] (w1 m c) slices_S1472x2944_S320x2944_320_0 : FVec Ideal S320x2944 .f32) bitsLt_bf16_f32 := by
    show StableHlo.after hostOps0 (fun b => m (c, b)) (Proc.devRef .tc main_v24) = _
    after_results
  rw [e]
  exact slice2_axis0_apply 320 (w1 m c) slices_S1472x2944_S320x2944_320_0 k h _ (by show 320 + k.val = 320 + k.val; omega)

/-- The third block: rows 640 … 1151. -/
theorem V_v26_apply (k : Fin 512) (h : Fin 2944) :
    (V m c main_v26 : S512x2944.Idx → EReal) (ix2 k h) = w1 m c (ix2 ⟨320 + 320 + k.val, by have := k.isLt; omega⟩ h) := by
  have e : (V m c main_v26 : S512x2944.Idx → EReal)
      = truncf .bf16 (extractStridedSlice S512x2944 ![640, 0] (w1 m c) slices_S1472x2944_S512x2944_640_0 : FVec Ideal S512x2944 .f32) bitsLt_bf16_f32 := by
    show StableHlo.after hostOps0 (fun b => m (c, b)) (Proc.devRef .tc main_v26) = _
    after_results
  rw [e]
  exact slice2_axis0_apply 640 (w1 m c) slices_S1472x2944_S512x2944_640_0 k h _ (by show 320 + 320 + k.val = 640 + k.val; omega)

/-- The fourth block: rows 1152 … 1471. -/
theorem V_v28_apply (k : Fin 320) (h : Fin 2944) :
    (V m c main_v28 : S320x2944.Idx → EReal) (ix2 k h) = w1 m c (ix2 ⟨320 + 320 + 512 + k.val, by have := k.isLt; omega⟩ h) := by
  have e : (V m c main_v28 : S320x2944.Idx → EReal)
      = truncf .bf16 (extractStridedSlice S320x2944 ![1152, 0] (w1 m c) slices_S1472x2944_S320x2944_1152_0 : FVec Ideal S320x2944 .f32) bitsLt_bf16_f32 := by
    show StableHlo.after hostOps0 (fun b => m (c, b)) (Proc.devRef .tc main_v28) = _
    after_results
  rw [e]
  exact slice2_axis0_apply 1152 (w1 m c) slices_S1472x2944_S320x2944_1152_0 k h _ (by show 320 + 320 + 512 + k.val = 1152 + k.val; omega)

/-- The second layer's weights, their float format changed: the same extended reals. -/
theorem V_v29_eq : (V m c main_v29 : S2944x1472.Idx → EReal) = w2 m c := by
  show StableHlo.after hostOps0 (fun b => m (c, b)) (Proc.devRef .tc main_v29) = _
  after_results
  rfl

/-! ## The padded last layer -/

/-- The zero-padded third-layer weights agree with the weights on the first 11 columns. -/
theorem V_v33_apply (f : Fin 1472) (a : Fin 11) :
    (V m c main_v33 : S1472x128.Idx → EReal) (ix2 f ⟨a.val, by have := a.isLt; omega⟩) = w3 m c (ix2 f a) := by
  have e : (V m c main_v33 : S1472x128.Idx → EReal)
      = truncf .bf16 (Host.scatter scatter_S1472x128_S1_S1472x11_01_n_1_0 (fun _ b => b)
          (broadcastInDim S1472x128 ![] bcast_S_S1472x128 (constant (F := Ideal) S_ .f32 0x00000000#32))
          (broadcastInDim S1 ![] bcast_S_S1 (constantI S_ 32 0#32)) (w3 m c) : FVec Ideal S1472x128 .f32) bitsLt_bf16_f32 := by
    show StableHlo.after hostOps0 (fun b => m (c, b)) (Proc.devRef .tc main_v33) = _
    after_results
  rw [e]
  refine (truncf_apply (φ := .f32) (ψ := .bf16) _ bitsLt_bf16_f32 _).trans ?_
  have hstart : ∀ (j : S1472x11.Idx) (ax : Fin 2), scatter_S1472x128_S1_S1472x11_01_n_1_0.start j (broadcastInDim S1 ![] bcast_S_S1 (constantI S_ 32 0#32)) ax = 0 := fun j ax => by
    unfold ScatterDims.start
    split
    · rfl
    · rfl
  have hw0 : ∀ j : S1472x11.Idx, scatter_S1472x128_S1_S1472x11_01_n_1_0.window j 0 = (j 0).val := fun j => by
    unfold ScatterDims.window
    rw [dif_pos (show (0 : Fin S1472x128.rank) ∈ scatter_S1472x128_S1_S1472x11_01_n_1_0.sKept by decide)]
    rfl
  have hw1 : ∀ j : S1472x11.Idx, scatter_S1472x128_S1_S1472x11_01_n_1_0.window j 1 = (j 1).val := fun j => by
    unfold ScatterDims.window
    rw [dif_pos (show (1 : Fin S1472x128.rank) ∈ scatter_S1472x128_S1_S1472x11_01_n_1_0.sKept by decide)]
    rfl
  refine Cert.ScatterSet.scatter_set_apply _ _ _ _ _ (ix2 f a) (fun ax => ?_) (fun j hj => ?_)
  · match ax with
    | ⟨0, _⟩ =>
      show scatter_S1472x128_S1_S1472x11_01_n_1_0.start (ix2 f a) (broadcastInDim S1 ![] bcast_S_S1 (constantI S_ 32 0#32)) 0 + ((scatter_S1472x128_S1_S1472x11_01_n_1_0.window (ix2 f a) 0 : ℕ) : Int) = ((f.val : ℕ) : Int)
      rw [hstart, hw0]
      show (0 : Int) + ((f.val : ℕ) : Int) = ((f.val : ℕ) : Int)
      omega
    | ⟨1, _⟩ =>
      show scatter_S1472x128_S1_S1472x11_01_n_1_0.start (ix2 f a) (broadcastInDim S1 ![] bcast_S_S1 (constantI S_ 32 0#32)) 1 + ((scatter_S1472x128_S1_S1472x11_01_n_1_0.window (ix2 f a) 1 : ℕ) : Int) = ((a.val : ℕ) : Int)
      rw [hstart, hw1]
      show (0 : Int) + ((a.val : ℕ) : Int) = ((a.val : ℕ) : Int)
      omega
  · have h0 : scatter_S1472x128_S1_S1472x11_01_n_1_0.start j (broadcastInDim S1 ![] bcast_S_S1 (constantI S_ 32 0#32)) 0 + ((scatter_S1472x128_S1_S1472x11_01_n_1_0.window j 0 : ℕ) : Int) = ((f.val : ℕ) : Int) := hj 0
    have h1 : scatter_S1472x128_S1_S1472x11_01_n_1_0.start j (broadcastInDim S1 ![] bcast_S_S1 (constantI S_ 32 0#32)) 1 + ((scatter_S1472x128_S1_S1472x11_01_n_1_0.window j 1 : ℕ) : Int) = ((a.val : ℕ) : Int) := hj 1
    rw [hstart, hw0] at h0
    rw [hstart, hw1] at h1
    have e0 : j 0 = f := Fin.ext (by omega)
    have e1 : j 1 = a := Fin.ext (by omega)
    exact (eq_ix2 j).trans (by rw [e0, e1]; rfl)

/-- The zero-padded third-layer bias agrees with the bias on the first 11 entries. -/
theorem V_v36_apply (a : Fin 11) :
    (V m c main_v36 : S128.Idx → EReal) (ix1 ⟨a.val, by have := a.isLt; omega⟩) = bias3 m c (ix1 a) := by
  have e : (V m c main_v36 : S128.Idx → EReal)
      = Host.scatter scatter_S128_S1_S11_0_n_0_0 (fun _ b => b)
          (broadcastInDim S128 ![] bcast_S_S128 (constant (F := Ideal) S_ .f32 0x00000000#32))
          (broadcastInDim S1 ![] bcast_S_S1 (constantI S_ 32 0#32)) (bias3 m c) := by
    show StableHlo.after hostOps0 (fun b => m (c, b)) (Proc.devRef .tc main_v36) = _
    after_results
  rw [e]
  have hstart : ∀ (j : S11.Idx) (ax : Fin 1), scatter_S128_S1_S11_0_n_0_0.start j (broadcastInDim S1 ![] bcast_S_S1 (constantI S_ 32 0#32)) ax = 0 := fun j ax => by
    unfold ScatterDims.start
    split
    · rfl
    · rfl
  have hw0 : ∀ j : S11.Idx, scatter_S128_S1_S11_0_n_0_0.window j 0 = (j 0).val := fun j => by
    unfold ScatterDims.window
    rw [dif_pos (show (0 : Fin S128.rank) ∈ scatter_S128_S1_S11_0_n_0_0.sKept by decide)]
    rfl
  refine Cert.ScatterSet.scatter_set_apply _ _ _ _ _ (ix1 a) (fun ax => ?_) (fun j hj => ?_)
  · match ax with
    | ⟨0, _⟩ =>
      show scatter_S128_S1_S11_0_n_0_0.start (ix1 a) (broadcastInDim S1 ![] bcast_S_S1 (constantI S_ 32 0#32)) 0 + ((scatter_S128_S1_S11_0_n_0_0.window (ix1 a) 0 : ℕ) : Int) = ((a.val : ℕ) : Int)
      rw [hstart, hw0]
      show (0 : Int) + ((a.val : ℕ) : Int) = ((a.val : ℕ) : Int)
      omega
  · have h0 : scatter_S128_S1_S11_0_n_0_0.start j (broadcastInDim S1 ![] bcast_S_S1 (constantI S_ 32 0#32)) 0 + ((scatter_S128_S1_S11_0_n_0_0.window j 0 : ℕ) : Int) = ((a.val : ℕ) : Int) := hj 0
    rw [hstart, hw0] at h0
    have e0 : j 0 = a := Fin.ext (by omega)
    exact (eq_ix1 j).trans (by rw [e0]; rfl)

/-! ## The region's logits are the specification's -/

/-- The logits the region computes for the pair `(i, j)` of graph `b`, in the 11 columns kept, are the edge network's. -/
theorem pairHead_eq (b : Fin 64) (i j : Fin 32) (a : Fin 11) :
    pairHead m c b i j ⟨a.val, by have := a.isLt; omega⟩
      = edgeLogits (nodeRows m c) (zArr m c) (aggRows m c) (w1 m c) (bias1 m c) (w2 m c) (bias2 m c) (w3 m c) (bias3 m c) b i j a := by
  unfold pairHead edgeLogits logitsOf edgeRow
  rw [preFour_eq_dense _ _ _ _ _ _ _ _ (w1 m c) _ (fun k h => V_v22_apply m c k h) (fun k h => V_v24_apply m c k h)
    (fun k h => V_v26_apply m c k h) (fun k h => V_v28_apply m c k h)]
  rw [headOf_padded (V m c main_v29 : S2944x1472.Idx → EReal) _ (w3 m c) (fun a => bias3 m c (ix1 a)) (V m c main_v33 : S1472x128.Idx → EReal) _ _ a
    ⟨a.val, by have := a.isLt; omega⟩ (fun f => V_v33_apply m c f a) (V_v36_apply m c a)]
  rw [V_v29_eq, V_main_arg6, V_main_arg8, V_v15_eq]
  have e19 : (fun k : Fin 512 => (V m c main_v19 : S64x1x512.Idx → EReal) (ix3 b (0 : Fin 1) k)) = fun k => zArr m c (ix2 b k) :=
    funext fun k => V_v19_apply m c b 0 k
  have e20 : (fun k : Fin 320 => (V m c main_v20 : S64x1x320.Idx → EReal) (ix3 b (0 : Fin 1) k)) = fun k => aggRows m c (ix2 b k) :=
    funext fun k => V_v20_apply m c b 0 k
  exact congrArg (fun r => headOf (w2 m c) (fun f => bias2 m c (ix1 f)) (w3 m c) (fun a => bias3 m c (ix1 a))
    (relu zeroE (dense r (w1 m c) (fun h => bias1 m c (ix1 h)))) a)
    (congrArg₂ (join4 (fun k => nodeRows m c (ix3 b i k)) (fun k => nodeRows m c (ix3 b j k))) e19 e20)

end Cert.KernelIdeal.HostSide

end
-- ==== Proof.KernelRun.lean ====
/-
  The idealized kernel's run: its result buffer ends at the edge network's result array.

  After the region the host keeps the first 11 of the 128 padded columns and flattens `[64, 1024, 11]` to
  `[65536, 11]`: row `b·1024 + r` of the result is row `r` of graph `b`'s block, and `r = i·32 + j` is the pair `(i, j)`.
  With the padded output array as one function of the staged arrays, and the staged arrays as functions of the
  arguments, the result is the specification's `G`.
-/
import proofs.«168549_j88691074662617_2_alg».proof.Proof.KernelHost
import proofs.«168549_j88691074662617_2_alg».proof.Proof.LibRelayout

open scoped BigOperators

noncomputable section

namespace Cert.KernelIdeal.RunValue

open Cert.KernelIdeal Cert.KernelIdeal.Gen Idealize.ShloMosaic Idealize.ShloMosaic.TcCoe Idealize.ShloMosaic.ValueIdx
open Idealize.SL.Sem Idealize.ShloMosaic.StableHlo
open Cert.RowLayers Cert.EdgeMlp Cert.KernelIdeal.Blocks Cert.KernelIdeal.HostSide Cert.Relayout

variable (m : (ℓ : Loc nD τ sig) → Buf (Elt Ideal) ℓ) (ρ : Dev nD → PrngReg)

/-- The result buffer after the lines that follow the region: the padded output, sliced and flattened. -/
theorem tail_eq (c : Dev nD) : Pipeline.afterTail₀ cfgs (dats m) 0 (V0 m) [hostOps1] c main_v39
    = shapeCast S65536x11 (extractStridedSlice S64x1024x11 ![0, 0, 0] (padOut m c) slices_S64x1024x128_S64x1024x11_0_0_0 :
        S64x1024x11.Idx → EReal) shapeCasts_S64x1024x11_S65536x11 := by
  unfold Pipeline.afterTail₀
  show StableHlo.after hostOps1 _ (Proc.devRef .tc main_v39) = _
  after_results
  have hw : Pipeline.withArrays (cfgs 0).spec c (V0 m c) (fun w => (dats m 0 c).arrAt w (cfgs 0).N) (Proc.devRef .tc main_v37)
      = padOut m c := (Pipeline.withArrays_arr spec0 launch0.win.arr_inj c _ _ 12).trans (final m c)
  rw [hw]
  rfl

/-- The sliced and flattened padded output at the row of a pair. -/
theorem result_at (c : Dev nD) (b : Fin 64) (i j : Fin 32) (a : Fin 11) (R : Fin 65536)
    (hR : R.val = (b.val * 32 + i.val) * 32 + j.val) :
    shapeCast S65536x11 (extractStridedSlice S64x1024x11 ![0, 0, 0] (padOut m c) slices_S64x1024x128_S64x1024x11_0_0_0 :
        S64x1024x11.Idx → EReal) shapeCasts_S64x1024x11_S65536x11 (ix2 R a)
      = edgeOut (nodeRows m c) (zArr m c) (aggRows m c) (w1 m c) (bias1 m c) (w2 m c) (bias2 m c) (w3 m c) (bias3 m c) b i j a := by
  have hi := i.isLt
  have hj := j.isLt
  have ha := a.isLt
  rw [merge_ab_apply _ _ b (⟨i.val * 32 + j.val, by omega⟩ : Fin 1024) a R (by show R.val = b.val * 1024 + (i.val * 32 + j.val); omega)]
  rw [extractStridedSlice_apply ![0, 0, 0] (padOut m c) slices_S64x1024x128_S64x1024x11_0_0_0
    (ix3 b (⟨i.val * 32 + j.val, by omega⟩ : Fin 1024) a) (ix3 b (⟨i.val * 32 + j.val, by omega⟩ : Fin 1024) (⟨a.val, by omega⟩ : Fin 128))
    (fun ax => by
      match ax with
      | ⟨0, _⟩ => show b.val = 0 + b.val; omega
      | ⟨1, _⟩ => show i.val * 32 + j.val = 0 + (i.val * 32 + j.val); omega
      | ⟨2, _⟩ => show a.val = 0 + a.val; omega)]
  rw [padOut_apply m c b i j ⟨a.val, by omega⟩ ⟨i.val * 32 + j.val, by omega⟩ rfl, pairHead_eq, pairHead_eq]
  rfl

/-- THE KERNEL'S RESULT IS `G` of the node rows, the latent rows, the per-graph means and the weights. -/
theorem result_eq (c : Dev nD) :
    shapeCast S65536x11 (extractStridedSlice S64x1024x11 ![0, 0, 0] (padOut m c) slices_S64x1024x128_S64x1024x11_0_0_0 :
        S64x1024x11.Idx → EReal) shapeCasts_S64x1024x11_S65536x11
      = G (nodeRows m c) (zArr m c) (aggRows m c) (w1 m c) (bias1 m c) (w2 m c) (bias2 m c) (w3 m c) (bias3 m c) := by
  funext e
  obtain ⟨R, a, rfl⟩ : ∃ (R : Fin 65536) (a : Fin 11), e = ix2 R a := ⟨e 0, e 1, eq_ix2 e⟩
  have hR := R.isLt
  rw [result_at m c ⟨R.val / 1024, by omega⟩ ⟨R.val / 32 % 32, Nat.mod_lt _ (by decide)⟩ ⟨R.val % 32, Nat.mod_lt _ (by decide)⟩ a R
      (by show R.val = (R.val / 1024 * 32 + R.val / 32 % 32) * 32 + R.val % 32; omega),
    G_apply _ _ _ _ _ _ _ _ _ ⟨R.val / 1024, by omega⟩ ⟨R.val / 32 % 32, Nat.mod_lt _ (by decide)⟩
      ⟨R.val % 32, Nat.mod_lt _ (by decide)⟩ a R (by show R.val = (R.val / 1024 * 32 + R.val / 32 % 32) * 32 + R.val % 32; omega)]

/-- Every weakly fair execution of the idealized kernel's @main terminates with the result buffer at `G` of the
    arguments and the arguments unchanged. -/
theorem run : θ_run defs (onTc (τ := τ) (main (F := Ideal))) ⟨m, fun _ => 0, ρ⟩ (fun r => ∀ c : Dev nD,
      r.2.mem ((c.tc : Thread nD τ).loc main_v39)
        = G (nodeRows m c) (zArr m c) (aggRows m c) (w1 m c) (bias1 m c) (w2 m c) (bias2 m c) (w3 m c) (bias3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v39 (Pipeline.mem_restRefs_of main_v39 (by decide) (by decide))).trans
        ((tail_eq m c).trans (result_eq m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 7).trans (((dats m 0 c).arrAt_in 7 rfl _).trans ((A_eq m c 7).trans (V_main_arg6 m c))),
      (((h c).2 main_arg7 (Pipeline.mem_restRefs_of main_arg7 (by decide) (by decide))).trans (W_main_arg7 m (dats m) c)),
      ((h c).1 9).trans (((dats m 0 c).arrAt_in 9 rfl _).trans ((A_eq m c 9).trans (V_main_arg8 m c))),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩) (run_main m ρ)

end Cert.KernelIdeal.RunValue

end
-- ==== Proof.RefValue.lean ====
/-
  The reference program's result is the edge network's result array.

  The reference builds, for every graph and ordered pair of nodes, the joined row `x[b, i] ‖ x[b, j] ‖ z[b] ‖ agg[b]` by
  broadcasting the four pieces over the pair axes and concatenating them; three contractions over the last axis with a
  bias each (the first two rectified) give the logits; the transpose of the two pair axes, a sum and the factor one half
  symmetrise them; the four axes are flattened row-major. Read stage by stage at an index given by coordinates this is,
  entry by entry, the specification's `G` of the node rows, the latent rows, the per-graph means and the weights.
-/
import proofs.«168549_j88691074662617_2_alg».proof.Proof.Gen.ReferenceIdeal.Read
import proofs.«168549_j88691074662617_2_alg».proof.Proof.EdgeSpec

open scoped BigOperators

noncomputable section

namespace Cert.ReferenceIdeal.RefValue

open Cert.ReferenceIdeal Cert.ReferenceIdeal.Gen Cert.ReferenceIdeal.Read Idealize.ShloMosaic Idealize.ShloMosaic.ValueIdx
open Cert.RowLayers Cert.EdgeMlp

variable (x0 x1 : (⟨S2048, .i32⟩ : BufTy).Contents (Elt Ideal)) (x2 : (⟨S64x512, .f32⟩ : BufTy).Contents (Elt Ideal)) (x3 : (⟨S100x256, .f32⟩ : BufTy).Contents (Elt Ideal)) (x4 : (⟨S20x64, .f32⟩ : BufTy).Contents (Elt Ideal)) (x5 : (⟨S1472x2944, .f32⟩ : BufTy).Contents (Elt Ideal)) (x6 : (⟨S2944, .f32⟩ : BufTy).Contents (Elt Ideal)) (x7 : (⟨S2944x1472, .f32⟩ : BufTy).Contents (Elt Ideal)) (x8 : (⟨S1472, .f32⟩ : BufTy).Contents (Elt Ideal)) (x9 : (⟨S1472x11, .f32⟩ : BufTy).Contents (Elt Ideal)) (x10 : (⟨S11, .f32⟩ : BufTy).Contents (Elt Ideal))

/-! ## The four pieces of the joined row -/

theorem v20_at (b : Fin 64) (i j : Fin 32) (k : Fin 320) :
    val_main_v20 (F := Ideal) x0 x1 x3 x4 (ix4 b i j k) = val_main_v15 (F := Ideal) x0 x1 x3 x4 (ix3 b i k) := by
  rw [val_main_v20_apply, val_main_v19_apply]
  exact congrArg _ (funext fun a => Fin.ext (by match a with | ⟨0, _⟩ => rfl | ⟨1, _⟩ => rfl | ⟨2, _⟩ => rfl))

theorem v22_at (b : Fin 64) (i j : Fin 32) (k : Fin 320) :
    val_main_v22 (F := Ideal) x0 x1 x3 x4 (ix4 b i j k) = val_main_v15 (F := Ideal) x0 x1 x3 x4 (ix3 b j k) := by
  rw [val_main_v22_apply, val_main_v21_apply]
  exact congrArg _ (funext fun a => Fin.ext (by match a with | ⟨0, _⟩ => rfl | ⟨1, _⟩ => rfl | ⟨2, _⟩ => rfl))

theorem v24_at (b : Fin 64) (i j : Fin 32) (k : Fin 512) :
    val_main_v24 (F := Ideal) x2 (ix4 b i j k) = x2 (ix2 b k) := by
  rw [val_main_v24_apply, val_main_v23_apply]
  exact congrArg _ (funext fun a => Fin.ext (by match a with | ⟨0, _⟩ => rfl | ⟨1, _⟩ => rfl))

theorem v26_at (b : Fin 64) (i j : Fin 32) (k : Fin 320) :
    val_main_v26 (F := Ideal) x0 x1 x3 x4 (ix4 b i j k) = val_main_v18 (F := Ideal) x0 x1 x3 x4 (ix2 b k) := by
  rw [val_main_v26_apply, val_main_v25_apply]
  exact congrArg _ (funext fun a => Fin.ext (by match a with | ⟨0, _⟩ => rfl | ⟨1, _⟩ => rfl))

/-- The concatenated array at `(b, i, j, f)` is entry `f` of the joined row of the pair. -/
theorem v27_at (b : Fin 64) (i j : Fin 32) (f : Fin 1472) :
    val_main_v27 (F := Ideal) x0 x1 x2 x3 x4 (ix4 b i j f)
      = edgeRow (val_main_v15 (F := Ideal) x0 x1 x3 x4) x2 (val_main_v18 (F := Ideal) x0 x1 x3 x4) b i j f := by
  unfold edgeRow join4 val_main_v27
  by_cases h1 : f.val < 320
  · rw [dif_pos h1]
    refine Eq.trans ?_ (v20_at x0 x1 x3 x4 b i j ⟨f.val - 0, by omega⟩)
    exact concatenate_apply_piece (3 : Fin S64x32x32x1472.rank) _ _ (ix4 b i j f) 0 (by show (0 : ℕ) < 4; decide) S64x32x32x320 (val_main_v20 (F := Ideal) x0 x1 x3 x4) rfl rfl 0 (by rfl)
      (ix4 b i j ⟨f.val - 0, by have := f.isLt; omega⟩)
      (fun ax hax => by
        match ax with
        | ⟨0, _⟩ => rfl
        | ⟨1, _⟩ => rfl
        | ⟨2, _⟩ => rfl
        | ⟨3, _⟩ => exact absurd rfl hax)
      (by show 0 + (f.val - 0) = f.val; omega)
  · rw [dif_neg h1]
    by_cases h2 : f.val < 640
    · rw [dif_pos h2]
      refine Eq.trans ?_ (v22_at x0 x1 x3 x4 b i j ⟨f.val - 320, by omega⟩)
      exact concatenate_apply_piece (3 : Fin S64x32x32x1472.rank) _ _ (ix4 b i j f) 1 (by show (1 : ℕ) < 4; decide) S64x32x32x320 (val_main_v22 (F := Ideal) x0 x1 x3 x4) rfl rfl 320 (by rfl)
        (ix4 b i j ⟨f.val - 320, by have := f.isLt; omega⟩)
        (fun ax hax => by
          match ax with
          | ⟨0, _⟩ => rfl
          | ⟨1, _⟩ => rfl
          | ⟨2, _⟩ => rfl
          | ⟨3, _⟩ => exact absurd rfl hax)
        (by show 320 + (f.val - 320) = f.val; omega)
    · rw [dif_neg h2]
      by_cases h3 : f.val < 1152
      · rw [dif_pos h3]
        refine Eq.trans ?_ (v24_at x2 b i j ⟨f.val - 640, by omega⟩)
        exact concatenate_apply_piece (3 : Fin S64x32x32x1472.rank) _ _ (ix4 b i j f) 2 (by show (2 : ℕ) < 4; decide) S64x32x32x512 (val_main_v24 (F := Ideal) x2) rfl rfl 640 (by rfl)
          (ix4 b i j ⟨f.val - 640, by have := f.isLt; omega⟩)
          (fun ax hax => by
            match ax with
            | ⟨0, _⟩ => rfl
            | ⟨1, _⟩ => rfl
            | ⟨2, _⟩ => rfl
            | ⟨3, _⟩ => exact absurd rfl hax)
          (by show 640 + (f.val - 640) = f.val; omega)
      · rw [dif_neg h3]
        refine Eq.trans ?_ (v26_at x0 x1 x3 x4 b i j ⟨f.val - 1152, by have := f.isLt; omega⟩)
        exact concatenate_apply_piece (3 : Fin S64x32x32x1472.rank) _ _ (ix4 b i j f) 3 (by show (3 : ℕ) < 4; decide) S64x32x32x320 (val_main_v26 (F := Ideal) x0 x1 x3 x4) rfl rfl 1152 (by rfl)
          (ix4 b i j ⟨f.val - 1152, by have := f.isLt; omega⟩)
          (fun ax hax => by
            match ax with
            | ⟨0, _⟩ => rfl
            | ⟨1, _⟩ => rfl
            | ⟨2, _⟩ => rfl
            | ⟨3, _⟩ => exact absurd rfl hax)
          (by show 1152 + (f.val - 1152) = f.val; omega)

/-! ## The three layers -/

/-- The first layer before its rectifier, on the pair's row. -/
theorem v31_at (b : Fin 64) (i j : Fin 32) (h : Fin 2944) :
    val_main_v31 (F := Ideal) x0 x1 x2 x3 x4 x5 x6 (ix4 b i j h)
      = dense (edgeRow (val_main_v15 (F := Ideal) x0 x1 x3 x4) x2 (val_main_v18 (F := Ideal) x0 x1 x3 x4) b i j) x5 (fun h => x6 (ix1 h)) h := by
  rw [val_main_v31_apply, val_main_v28_apply, val_main_v30_apply, val_main_v29_apply]
  unfold dense
  refine congrArg₂ (· + ·) (Finset.sum_congr rfl fun k _ => ?_) (congrArg x6 (funext fun a => Fin.ext (by match a with | ⟨0, _⟩ => rfl)))
  have e1 : lidx_main_v28 (ix4 b i j h) k = ix4 b i j k :=
    funext fun a => Fin.ext (by match a with | ⟨0, _⟩ => rfl | ⟨1, _⟩ => rfl | ⟨2, _⟩ => rfl | ⟨3, _⟩ => rfl)
  have e2 : ridx_main_v28 (ix4 b i j h) k = ix2 k h := funext fun a => Fin.ext (by match a with | ⟨0, _⟩ => rfl | ⟨1, _⟩ => rfl)
  rw [e1, e2, v27_at]

/-- The rectified first layer. -/
theorem v32_at (b : Fin 64) (i j : Fin 32) (h : Fin 2944) :
    val_main_v32 (F := Ideal) x0 x1 x2 x3 x4 x5 x6 (ix4 b i j h)
      = relu zeroE (dense (edgeRow (val_main_v15 (F := Ideal) x0 x1 x3 x4) x2 (val_main_v18 (F := Ideal) x0 x1 x3 x4) b i j) x5
          (fun h => x6 (ix1 h))) h := by
  rw [val_main_v32_apply, v31_at, val_main_call0_v0_apply, val_main_call0_cst_apply]
  rfl

/-- The second layer before its rectifier. -/
theorem v36_at (b : Fin 64) (i j : Fin 32) (f : Fin 1472) :
    val_main_v36 (F := Ideal) x0 x1 x2 x3 x4 x5 x6 x7 x8 (ix4 b i j f)
      = dense (relu zeroE (dense (edgeRow (val_main_v15 (F := Ideal) x0 x1 x3 x4) x2 (val_main_v18 (F := Ideal) x0 x1 x3 x4) b i j) x5
          (fun h => x6 (ix1 h)))) x7 (fun f => x8 (ix1 f)) f := by
  rw [val_main_v36_apply, val_main_v33_apply, val_main_v35_apply, val_main_v34_apply]
  unfold dense
  refine congrArg₂ (· + ·) (Finset.sum_congr rfl fun k _ => ?_) (congrArg x8 (funext fun a => Fin.ext (by match a with | ⟨0, _⟩ => rfl)))
  have e1 : lidx_main_v33 (ix4 b i j f) k = ix4 b i j k :=
    funext fun a => Fin.ext (by match a with | ⟨0, _⟩ => rfl | ⟨1, _⟩ => rfl | ⟨2, _⟩ => rfl | ⟨3, _⟩ => rfl)
  have e2 : ridx_main_v33 (ix4 b i j f) k = ix2 k f := funext fun a => Fin.ext (by match a with | ⟨0, _⟩ => rfl | ⟨1, _⟩ => rfl)
  rw [e1, e2, v32_at]
  rfl

/-- The rectified second layer. -/
theorem v37_at (b : Fin 64) (i j : Fin 32) (f : Fin 1472) :
    val_main_v37 (F := Ideal) x0 x1 x2 x3 x4 x5 x6 x7 x8 (ix4 b i j f)
      = relu zeroE (dense (relu zeroE (dense (edgeRow (val_main_v15 (F := Ideal) x0 x1 x3 x4) x2 (val_main_v18 (F := Ideal) x0 x1 x3 x4) b i j) x5
          (fun h => x6 (ix1 h)))) x7 (fun f => x8 (ix1 f))) f := by
  rw [val_main_v37_apply, v36_at, val_main_call1_v0_apply, val_main_call1_cst_apply]
  rfl

/-- The logits of the pair. -/
theorem v41_at (b : Fin 64) (i j : Fin 32) (a : Fin 11) :
    val_main_v41 (F := Ideal) x0 x1 x2 x3 x4 x5 x6 x7 x8 x9 x10 (ix4 b i j a)
      = edgeLogits (val_main_v15 (F := Ideal) x0 x1 x3 x4) x2 (val_main_v18 (F := Ideal) x0 x1 x3 x4) x5 x6 x7 x8 x9 x10 b i j a := by
  rw [val_main_v41_apply, val_main_v38_apply, val_main_v40_apply, val_main_v39_apply]
  unfold edgeLogits logitsOf headOf
  show _ = dense _ x9 (fun a => x10 (ix1 a)) a
  unfold dense
  refine congrArg₂ (· + ·) (Finset.sum_congr rfl fun k _ => ?_) (congrArg x10 (funext fun ax => Fin.ext (by match ax with | ⟨0, _⟩ => rfl)))
  have e1 : lidx_main_v38 (ix4 b i j a) k = ix4 b i j k :=
    funext fun ax => Fin.ext (by match ax with | ⟨0, _⟩ => rfl | ⟨1, _⟩ => rfl | ⟨2, _⟩ => rfl | ⟨3, _⟩ => rfl)
  have e2 : ridx_main_v38 (ix4 b i j a) k = ix2 k a := funext fun ax => Fin.ext (by match ax with | ⟨0, _⟩ => rfl | ⟨1, _⟩ => rfl)
  rw [e1, e2, v37_at]
  rfl

/-! ## The symmetrisation and the flattening -/

/-- The reference's result at the row of the pair `(i, j)` of graph `b`. -/
theorem result_at (b : Fin 64) (i j : Fin 32) (a : Fin 11) (R : Fin 65536) (hR : R.val = (b.val * 32 + i.val) * 32 + j.val) :
    val_main_v46 (F := Ideal) x0 x1 x2 x3 x4 x5 x6 x7 x8 x9 x10 (ix2 R a)
      = edgeOut (val_main_v15 (F := Ideal) x0 x1 x3 x4) x2 (val_main_v18 (F := Ideal) x0 x1 x3 x4) x5 x6 x7 x8 x9 x10 b i j a := by
  have hb := b.isLt
  have hi := i.isLt
  have hj := j.isLt
  have ha := a.isLt
  have e : idx_main_v46 (ix2 R a) = ix4 b i j a := funext fun ax => Fin.ext (by
    match ax with
    | ⟨0, _⟩ => show (R.val * 11 + a.val) / 11264 = b.val; omega
    | ⟨1, _⟩ => show (R.val * 11 + a.val) / 352 % 32 = i.val; omega
    | ⟨2, _⟩ => show (R.val * 11 + a.val) / 11 % 32 = j.val; omega
    | ⟨3, _⟩ => show (R.val * 11 + a.val) % 11 = a.val; omega)
  have e2 : idx_main_v42 (ix4 b i j a) = ix4 b j i a :=
    funext fun ax => Fin.ext (by match ax with | ⟨0, _⟩ => rfl | ⟨1, _⟩ => rfl | ⟨2, _⟩ => rfl | ⟨3, _⟩ => rfl)
  rw [val_main_v46_apply, e, val_main_v45_apply, val_main_v44_apply, val_main_cst_4_apply, val_main_v43_apply, val_main_v42_apply, e2,
    v41_at, v41_at]
  rfl

/-- THE REFERENCE'S RESULT IS `G`. -/
theorem result_eq :
    val_main_v46 (F := Ideal) x0 x1 x2 x3 x4 x5 x6 x7 x8 x9 x10
      = G (val_main_v15 (F := Ideal) x0 x1 x3 x4) x2 (val_main_v18 (F := Ideal) x0 x1 x3 x4) x5 x6 x7 x8 x9 x10 := by
  funext e
  obtain ⟨R, a, rfl⟩ : ∃ (R : Fin 65536) (a : Fin 11), e = ix2 R a := ⟨e 0, e 1, eq_ix2 e⟩
  have hR := R.isLt
  rw [result_at x0 x1 x2 x3 x4 x5 x6 x7 x8 x9 x10 ⟨R.val / 1024, by omega⟩ ⟨R.val / 32 % 32, Nat.mod_lt _ (by decide)⟩
      ⟨R.val % 32, Nat.mod_lt _ (by decide)⟩ a R (by show R.val = (R.val / 1024 * 32 + R.val / 32 % 32) * 32 + R.val % 32; omega),
    G_apply _ _ _ _ _ _ _ _ _ ⟨R.val / 1024, by omega⟩ ⟨R.val / 32 % 32, Nat.mod_lt _ (by decide)⟩
      ⟨R.val % 32, Nat.mod_lt _ (by decide)⟩ a R (by show R.val = (R.val / 1024 * 32 + R.val / 32 % 32) * 32 + R.val % 32; omega)]

end Cert.ReferenceIdeal.RefValue

end
-- ==== Proof.lean ====
/-
  The certificate of the fused edge-network kernel against its jnp reference, over the extended reals.

  For each of 64 graphs with 32 nodes the network scores every ordered pair of nodes `(i, j)`: the pair's input row is
  `x[i] ‖ x[j] ‖ z ‖ agg` (node rows, the graph's latent row, the mean of its node rows), three dense layers follow, the
  first two rectified, and the 11 logits of `(i, j)` are averaged with those of `(j, i)`.

  The reference forms the joined rows and contracts them against the whole first weight matrix. The kernel never
  forms them: the first layer is affine in the four pieces, so it contracts each piece against its own block of rows of
  the weight matrix — `(x[i]·Wa + x[j]·Wb) + ((z·Wc + agg·Wd) + b₁)`. The two agree because a sum over 1472
  consecutive indices is the sum of its four blocks' sums and addition is associative; that holds for every extended
  real, so the precondition (finite inputs) is never used. The later layers are the same row by row; the kernel's
  last layer is padded to 128 columns of which the first 11 are kept; the kernel lists the pairs of a graph as rows
  `i·32 + j` of a `[1024, 128]` block, the reference as a `[32, 32, 11]` array, and both flatten row-major.

  Proof/EdgeSpec.lean states the network as one function `G` of the arrays; Proof/KernelBody.lean reads the kernel
  body's stored value at an entry; Proof/KernelBlock.lean goes from the 64 written blocks to the padded output array;
  Proof/KernelHost.lean reads the arrays the region stages off the program's arguments; Proof/KernelRun.lean reads the
  lines after the region and states the kernel's run; Proof/RefValue.lean reads the reference stage by stage. The node
  rows and the per-graph means are computed by host lines the two programs share, and are never opened.
-/
import proofs.«168549_j88691074662617_2_alg».proof.Defs
import proofs.«168549_j88691074662617_2_alg».proof.Proof.Gen.Kernel
import proofs.«168549_j88691074662617_2_alg».proof.Proof.Gen.Kernel.Skeleton
import proofs.«168549_j88691074662617_2_alg».proof.Proof.Gen.Kernel.Launch
import proofs.«168549_j88691074662617_2_alg».proof.Proof.Gen.Kernel.Points
import proofs.«168549_j88691074662617_2_alg».proof.Proof.Gen.Kernel.Frame
import proofs.«168549_j88691074662617_2_alg».proof.Proof.Gen.KernelIdeal
import proofs.«168549_j88691074662617_2_alg».proof.Proof.Gen.KernelIdeal.Skeleton
import proofs.«168549_j88691074662617_2_alg».proof.Proof.Gen.KernelIdeal.Launch
import proofs.«168549_j88691074662617_2_alg».proof.Proof.Gen.KernelIdeal.Points
import proofs.«168549_j88691074662617_2_alg».proof.Proof.Gen.KernelIdeal.Frame
import proofs.«168549_j88691074662617_2_alg».proof.Proof.Gen.ReferenceIdeal
import proofs.«168549_j88691074662617_2_alg».proof.Proof.Gen.Pre_finite_inputs
import proofs.«168549_j88691074662617_2_alg».proof.Proof.Gen.ReferenceIdeal.Run
import proofs.«168549_j88691074662617_2_alg».proof.Proof.Gen.ReferenceIdeal.Read
import proofs.«168549_j88691074662617_2_alg».proof.Proof.KernelRun
import proofs.«168549_j88691074662617_2_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the result buffer at `G` of the node rows, the latent rows, the per-graph means and the
    weights — stated over the kernel's arguments, which the reference's agree with. -/
theorem algebraic : Cert.algebraic_KernelIdeal_ReferenceIdeal := by
  intro m ρ m' ρ' _ hagree
  refine ⟨fun c => Cert.EdgeMlp.G (Cert.KernelIdeal.HostSide.nodeRows m c) (Cert.KernelIdeal.HostSide.zArr m c)
      (Cert.KernelIdeal.HostSide.aggRows m c) (Cert.KernelIdeal.HostSide.w1 m c) (Cert.KernelIdeal.HostSide.bias1 m c)
      (Cert.KernelIdeal.HostSide.w2 m c) (Cert.KernelIdeal.HostSide.bias2 m c) (Cert.KernelIdeal.HostSide.w3 m c)
      (Cert.KernelIdeal.HostSide.bias3 m c), Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, Cert.ReferenceIdeal.RefValue.result_eq]
  obtain ⟨h0, h1, h2, h3, h4, h5, h6, h7, h8, h9, h10⟩ := hagree c
  rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
